-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x512 : Shape := ⟨2, ![50000, 512]⟩
abbrev S2x800000 : Shape := ⟨2, ![2, 800000]⟩
abbrev S256x512 : Shape := ⟨2, ![256, 512]⟩
abbrev S256 : Shape := ⟨1, ![256]⟩
abbrev S256x256 : Shape := ⟨2, ![256, 256]⟩
abbrev S128x256 : Shape := ⟨2, ![128, 256]⟩
abbrev S128 : Shape := ⟨1, ![128]⟩
abbrev S_ : Shape := ⟨0, ![]⟩

class Facts : Prop where
  bcast_S_S50000x512 : S_.BroadcastsInDim S50000x512 (![] : Fin 0 → Fin S50000x512.rank)
  reducesTo_S50000x512_S_d0_1 : S50000x512.ReducesTo [0, 1] S_
  h_S_ : 0 < S_.numel
  bcast_S_S256x512 : S_.BroadcastsInDim S256x512 (![] : Fin 0 → Fin S256x512.rank)
  reducesTo_S256x512_S_d0_1 : S256x512.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_

variable [Facts]

def fn_part3 {F : FTy → Type} [FloatOps F] (main_v48 : IVec S_ 1) (main_v49 : FVec F S128x256 .f32) (main_v50 : FVec F S128x256 .f32) : IVec S_ 1 :=
  let main_v51 : IVec S128x256 1 := cmpf .olt main_v49 main_v50
  let main_c_19 : IVec S_ 1 := constantI S_ 1 1#1
  let main_v52 : IVec S_ 1 := (fun x v => Host.reduce IntOp.andi x v reducesTo_S128x256_S_d0_1 h_S_) main_v51 main_c_19
  let main_v53 : IVec S_ 1 := andi main_v48 main_v52
  main_v53

def fn_part2 {F : FTy → Type} [FloatOps F] (main_arg8 : FVec F S256x256 .f32) (main_arg9 : FVec F S128x256 .f32) (main_arg10 : FVec F S128 .f32) (main_arg11 : FVec F S128x256 .f32) (main_v33 : IVec S_ 1) : IVec S_ 1 :=
  let main_v34 : FVec F S256x256 .f32 := Host.absf main_arg8
  let main_cst_12 : FVec F S_ .f32 := constant S_ .f32 0x7F800000#32
  let main_v35 : FVec F S256x256 .f32 := broadcastInDim S256x256 ![] bcast_S_S256x256 main_cst_12
  let main_v36 : IVec S256x256 1 := cmpf .olt main_v34 main_v35
  let main_c_13 : IVec S_ 1 := constantI S_ 1 1#1
  let main_v37 : IVec S_ 1 := (fun x v => Host.reduce IntOp.andi x v reducesTo_S256x256_S_d0_1 h_S_) main_v36 main_c_13
  let main_v38 : IVec S_ 1 := andi main_v33 main_v37
  let main_v39 : FVec F S128x256 .f32 := Host.absf main_arg9
  let main_cst_14 : FVec F S_ .f32 := constant S_ .f32 0x7F800000#32
  let main_v40 : FVec F S128x256 .f32 := broadcastInDim S128x256 ![] bcast_S_S128x256 main_cst_14
  let main_v41 : IVec S128x256 1 := cmpf .olt main_v39 main_v40
  let main_c_15 : IVec S_ 1 := constantI S_ 1 1#1
  let main_v42 : IVec S_ 1 := (fun x v => Host.reduce IntOp.andi x v reducesTo_S128x256_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x256 .f32 := Host.absf main_arg11
  let main_cst_18 : FVec F S_ .f32 := constant S_ .f32 0x7F800000#32
  let main_v50 : FVec F S128x256 .f32 := broadcastInDim S128x256 ![] bcast_S_S128x256 main_cst_18
  fn_part3 (F := F) main_v48 main_v49 main_v50

def fn_part1 {F : FTy → Type} [FloatOps F] (main_arg5 : FVec F S256 .f32) (main_arg6 : FVec F S256x256 .f32) (main_arg7 : FVec F S256 .f32) (main_arg8 : FVec F S256x256 .f32) (main_arg9 : FVec F S128x256 .f32) (main_arg10 : FVec F S128 .f32) (main_arg11 : FVec F S128x256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg6
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg7
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg8 main_arg9 main_arg10 main_arg11 main_v33

def fn {F : FTy → Type} [FloatOps F] (main_arg0 : FVec F S50000x512 .f32) (main_arg1 : IVec S2x800000 32) (main_arg2 : FVec F S256x512 .f32) (main_arg3 : FVec F S256 .f32) (main_arg4 : FVec F S256x256 .f32) (main_arg5 : FVec F S256 .f32) (main_arg6 : FVec F S256x256 .f32) (main_arg7 : FVec F S256 .f32) (main_arg8 : FVec F S256x256 .f32) (main_arg9 : FVec F S128x256 .f32) (main_arg10 : FVec F S128 .f32) (main_arg11 : FVec F S128x256 .f32) : IVec S_ 1 :=
  let main_v0 : FVec F S50000x512 .f32 := Host.absf main_arg0
  let main_cst : FVec F S_ .f32 := constant S_ .f32 0x7F800000#32
  let main_v1 : FVec F S50000x512 .f32 := broadcastInDim S50000x512 ![] bcast_S_S50000x512 main_cst
  let main_v2 : IVec S50000x512 1 := cmpf .olt main_v0 main_v1
  let main_c : IVec S_ 1 := constantI S_ 1 1#1
  let main_v3 : IVec S_ 1 := (fun x v => Host.reduce IntOp.andi x v reducesTo_S50000x512_S_d0_1 h_S_) main_v2 main_c
  let main_v4 : FVec F S256x512 .f32 := Host.absf main_arg2
  let main_cst_0 : FVec F S_ .f32 := constant S_ .f32 0x7F800000#32
  let main_v5 : FVec F S256x512 .f32 := broadcastInDim S256x512 ![] bcast_S_S256x512 main_cst_0
  let main_v6 : IVec S256x512 1 := cmpf .olt main_v4 main_v5
  let main_c_1 : IVec S_ 1 := constantI S_ 1 1#1
  let main_v7 : IVec S_ 1 := (fun x v => Host.reduce IntOp.andi x v reducesTo_S256x512_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg4
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg5 main_arg6 main_arg7 main_arg8 main_arg9 main_arg10 main_arg11 main_v13 main_v16
-- ==== Kernel.lean ====
abbrev S50000x512 : Shape := ⟨2, ![50000, 512]⟩
abbrev S2x800000 : Shape := ⟨2, ![2, 800000]⟩
abbrev S256x512 : Shape := ⟨2, ![256, 512]⟩
abbrev S256 : Shape := ⟨1, ![256]⟩
abbrev S256x256 : Shape := ⟨2, ![256, 256]⟩
abbrev S128x256 : Shape := ⟨2, ![128, 256]⟩
abbrev S128 : Shape := ⟨1, ![128]⟩
abbrev S1x800000 : Shape := ⟨2, ![1, 800000]⟩
abbrev S800000 : Shape := ⟨1, ![800000]⟩
abbrev S1x256 : Shape := ⟨2, ![1, 256]⟩
abbrev S50000x256 : Shape := ⟨2, ![50000, 256]⟩
abbrev S2000x512 : Shape := ⟨2, ![2000, 512]⟩
abbrev S2000x256 : Shape := ⟨2, ![2000, 256]⟩
abbrev S512x256 : Shape := ⟨2, ![512, 256]⟩
abbrev S_ : Shape := ⟨0, ![]⟩
abbrev S800000x1 : Shape := ⟨2, ![800000, 1]⟩
abbrev S800000x256 : Shape := ⟨2, ![800000, 256]⟩
abbrev S50000 : Shape := ⟨1, ![50000]⟩
abbrev S50000x1 : Shape := ⟨2, ![50000, 1]⟩
abbrev S1x128 : Shape := ⟨2, ![1, 128]⟩
abbrev S50000x128 : Shape := ⟨2, ![50000, 128]⟩
abbrev S2000x128 : Shape := ⟨2, ![2000, 128]⟩
abbrev S256x128 : Shape := ⟨2, ![256, 128]⟩
abbrev S2000 : Shape := ⟨1, ![2000]⟩
abbrev S2000x1 : Shape := ⟨2, ![2000, 1]⟩

abbrev nBuf : Space → Nat
  | .hbm => 73
  | .vmem => 26
  | .smem => 0
  | _ => 0

abbrev bufTy : (tb : Table) → Fin (tcTables nBuf tb) → BufTy
  | .hbm, ⟨0, _⟩ => ⟨S50000x512, .f32⟩
  | .hbm, ⟨1, _⟩ => ⟨S2x800000, .i32⟩
  | .hbm, ⟨2, _⟩ => ⟨S256x512, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S256x256, .f32⟩
  | .hbm, ⟨9, _⟩ => ⟨S128x256, .f32⟩
  | .hbm, ⟨10, _⟩ => ⟨S128, .f32⟩
  | .hbm, ⟨11, _⟩ => ⟨S128x256, .f32⟩
  | .hbm, ⟨12, _⟩ => ⟨S1x800000, .i32⟩
  | .hbm, ⟨13, _⟩ => ⟨S800000, .i32⟩
  | .hbm, ⟨14, _⟩ => ⟨S1x800000, .i32⟩
  | .hbm, ⟨15, _⟩ => ⟨S800000, .i32⟩
  | .hbm, ⟨16, _⟩ => ⟨S1x256, .f32⟩
  | .hbm, ⟨17, _⟩ => ⟨S1x256, .f32⟩
  | .hbm, ⟨18, _⟩ => ⟨S50000x256, .f32⟩
  | .hbm, ⟨19, _⟩ => ⟨S_, .i32⟩
  | .hbm, ⟨20, _⟩ => ⟨S800000, .i32⟩
  | .hbm, ⟨21, _⟩ => ⟨S800000, .i1⟩
  | .hbm, ⟨22, _⟩ => ⟨S_, .i32⟩
  | .hbm, ⟨23, _⟩ => ⟨S800000, .i32⟩
  | .hbm, ⟨24, _⟩ => ⟨S800000, .i32⟩
  | .hbm, ⟨25, _⟩ => ⟨S800000, .i32⟩
  | .hbm, ⟨26, _⟩ => ⟨S800000x1, .i32⟩
  | .hbm, ⟨27, _⟩ => ⟨S800000x256, .f32⟩
  | .hbm, ⟨28, _⟩ => ⟨S_, .f32⟩
  | .hbm, ⟨29, _⟩ => ⟨S50000x256, .f32⟩
  | .hbm, ⟨30, _⟩ => ⟨S800000x1, .i32⟩
  | .hbm, ⟨31, _⟩ => ⟨S50000x256, .f32⟩
  | .hbm, ⟨32, _⟩ => ⟨S_, .f32⟩
  | .hbm, ⟨33, _⟩ => ⟨S800000, .f32⟩
  | .hbm, ⟨34, _⟩ => ⟨S_, .f32⟩
  | .hbm, ⟨35, _⟩ => ⟨S50000, .f32⟩
  | .hbm, ⟨36, _⟩ => ⟨S800000x1, .i32⟩
  | .hbm, ⟨37, _⟩ => ⟨S50000, .f32⟩
  | .hbm, ⟨38, _⟩ => ⟨S_, .f32⟩
  | .hbm, ⟨39, _⟩ => ⟨S50000, .f32⟩
  | .hbm, ⟨40, _⟩ => ⟨S50000, .f32⟩
  | .hbm, ⟨41, _⟩ => ⟨S50000x1, .f32⟩
  | .hbm, ⟨42, _⟩ => ⟨S50000x256, .f32⟩
  | .hbm, ⟨43, _⟩ => ⟨S50000x256, .f32⟩
  | .hbm, ⟨44, _⟩ => ⟨S1x256, .f32⟩
  | .hbm, ⟨45, _⟩ => ⟨S50000x256, .f32⟩
  | .hbm, ⟨46, _⟩ => ⟨S_, .i32⟩
  | .hbm, ⟨47, _⟩ => ⟨S800000, .i32⟩
  | .hbm, ⟨48, _⟩ => ⟨S800000, .i1⟩
  | .hbm, ⟨49, _⟩ => ⟨S_, .i32⟩
  | .hbm, ⟨50, _⟩ => ⟨S800000, .i32⟩
  | .hbm, ⟨51, _⟩ => ⟨S800000, .i32⟩
  | .hbm, ⟨52, _⟩ => ⟨S800000, .i32⟩
  | .hbm, ⟨53, _⟩ => ⟨S800000x1, .i32⟩
  | .hbm, ⟨54, _⟩ => ⟨S800000x256, .f32⟩
  | .hbm, ⟨55, _⟩ => ⟨S_, .f32⟩
  | .hbm, ⟨56, _⟩ => ⟨S50000x256, .f32⟩
  | .hbm, ⟨57, _⟩ => ⟨S800000x1, .i32⟩
  | .hbm, ⟨58, _⟩ => ⟨S50000x256, .f32⟩
  | .hbm, ⟨59, _⟩ => ⟨S_, .f32⟩
  | .hbm, ⟨60, _⟩ => ⟨S800000, .f32⟩
  | .hbm, ⟨61, _⟩ => ⟨S_, .f32⟩
  | .hbm, ⟨62, _⟩ => ⟨S50000, .f32⟩
  | .hbm, ⟨63, _⟩ => ⟨S800000x1, .i32⟩
  | .hbm, ⟨64, _⟩ => ⟨S50000, .f32⟩
  | .hbm, ⟨65, _⟩ => ⟨S_, .f32⟩
  | .hbm, ⟨66, _⟩ => ⟨S50000, .f32⟩
  | .hbm, ⟨67, _⟩ => ⟨S50000, .f32⟩
  | .hbm, ⟨68, _⟩ => ⟨S50000x1, .f32⟩
  | .hbm, ⟨69, _⟩ => ⟨S50000x256, .f32⟩
  | .hbm, ⟨70, _⟩ => ⟨S50000x256, .f32⟩
  | .hbm, ⟨71, _⟩ => ⟨S1x128, .f32⟩
  | .hbm, ⟨72, _⟩ => ⟨S50000x128, .f32⟩
  | .local _ .vmem, ⟨0, _⟩ => ⟨S2000x512, .f32⟩
  | .local _ .vmem, ⟨1, _⟩ => ⟨S2000x512, .f32⟩
  | .local _ .vmem, ⟨2, _⟩ => ⟨S256x512, .f32⟩
  | .local _ .vmem, ⟨3, _⟩ => ⟨S1x256, .f32⟩
  | .local _ .vmem, ⟨4, _⟩ => ⟨S256x256, .f32⟩
  | .local _ .vmem, ⟨5, _⟩ => ⟨S1x256, .f32⟩
  | .local _ .vmem, ⟨6, _⟩ => ⟨S2000x256, .f32⟩
  | .local _ .vmem, ⟨7, _⟩ => ⟨S2000x256, .f32⟩
  | .local _ .vmem, ⟨8, _⟩ => ⟨S2000x256, .f32⟩
  | .local _ .vmem, ⟨9, _⟩ => ⟨S2000x256, .f32⟩
  | .local _ .vmem, ⟨10, _⟩ => ⟨S2000x256, .f32⟩
  | .local _ .vmem, ⟨11, _⟩ => ⟨S2000x256, .f32⟩
  | .local _ .vmem, ⟨12, _⟩ => ⟨S256x256, .f32⟩
  | .local _ .vmem, ⟨13, _⟩ => ⟨S1x256, .f32⟩
  | .local _ .vmem, ⟨14, _⟩ => ⟨S256x256, .f32⟩
  | .local _ .vmem, ⟨15, _⟩ => ⟨S2000x256, .f32⟩
  | .local _ .vmem, ⟨16, _⟩ => ⟨S2000x256, .f32⟩
  | .local _ .vmem, ⟨17, _⟩ => ⟨S2000x256, .f32⟩
  | .local _ .vmem, ⟨18, _⟩ => ⟨S2000x256, .f32⟩
  | .local _ .vmem, ⟨19, _⟩ => ⟨S2000x256, .f32⟩
  | .local _ .vmem, ⟨20, _⟩ => ⟨S2000x256, .f32⟩
  | .local _ .vmem, ⟨21, _⟩ => ⟨S128x256, .f32⟩
  | .local _ .vmem, ⟨22, _⟩ => ⟨S1x128, .f32⟩
  | .local _ .vmem, ⟨23, _⟩ => ⟨S128x256, .f32⟩
  | .local _ .vmem, ⟨24, _⟩ => ⟨S2000x128, .f32⟩
  | .local _ .vmem, ⟨25, _⟩ => ⟨S2000x128, .f32⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_c : Ref sig .tc := ⟨.hbm, 19, rfl⟩
abbrev main_v7 : Ref sig .tc := ⟨.hbm, 20, rfl⟩
abbrev main_v8 : Ref sig .tc := ⟨.hbm, 21, rfl⟩
abbrev main_c_0 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst_1 : Ref sig .tc := ⟨.hbm, 32, rfl⟩
abbrev main_v17 : Ref sig .tc := ⟨.hbm, 33, rfl⟩
abbrev main_cst_2 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_cst_3 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_c_4 : Ref sig .tc := ⟨.hbm, 46, rfl⟩
abbrev main_v28 : Ref sig .tc := ⟨.hbm, 47, rfl⟩
abbrev main_v29 : Ref sig .tc := ⟨.hbm, 48, rfl⟩
abbrev main_c_5 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_cst_6 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_cst_7 : Ref sig .tc := ⟨.hbm, 59, rfl⟩
abbrev main_v38 : Ref sig .tc := ⟨.hbm, 60, rfl⟩
abbrev main_cst_8 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_cst_9 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg5_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg5_0 : Ref sig .tc := ⟨.vmem, 24, rfl⟩
abbrev cc2_stg5_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem5_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem3_0 : DmaSem sig := 22
abbrev cc2_sem4_0 : DmaSem sig := 23
abbrev cc2_sem5_0 : DmaSem sig := 24
abbrev cc2_sem5_1 : DmaSem sig := 25

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  shapeCasts_S256_S1x256 : S256.ShapeCasts S1x256
  inb_S2000x512_S2000x512_0_0 : ∀ a, (![0, 0] : Fin 2 → Nat) a + S2000x512.size a ≤ S2000x512.size a
  h_S2000x512 : 0 < S2000x512.numel
  bitsLt_bf16_f32 : FTy.bits .bf16 < FTy.bits .f32
  inb_S256x512_S256x512_0_0 : ∀ a, (![0, 0] : Fin 2 → Nat) a + S256x512.size a ≤ S256x512.size a
  h_S256x512 : 0 < S256x512.numel
  transposes_S256x512_p1_0_S512x256 : S256x512.Transposes [1, 0] S512x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S256x256_S256x256_0_0 : ∀ a, (![0, 0] : Fin 2 → Nat) a + S256x256.size a ≤ S256x256.size a
  h_S256x256 : 0 < S256x256.numel
  transposes_S256x256_p1_0_S256x256 : S256x256.Transposes [1, 0] S256x256
  inb_S2000x256_S2000x256_0_0 : ∀ a, (![0, 0] : Fin 2 → Nat) a + S2000x256.size a ≤ S2000x256.size a
  h_S2000x256 : 0 < S2000x256.numel
  bcast_S_S800000 : S_.BroadcastsInDim S800000 (![] : Fin 0 → Fin S800000.rank)
  bcast_S800000_S800000x1_0 : S800000.BroadcastsInDim S800000x1 (![0] : Fin 1 → Fin S800000x1.rank)
  bcast_S_S50000x256 : S_.BroadcastsInDim S50000x256 (![] : Fin 0 → Fin S50000x256.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x256_0_1 : S50000x1.BroadcastsInDim S50000x256 (![0, 1] : Fin 2 → Fin S50000x256.rank)
  shapeCasts_S2000x256_S2000x256 : S2000x256.ShapeCasts S2000x256
  shapeCasts_S128_S1x128 : S128.ShapeCasts S1x128
  inb_S128x256_S128x256_0_0 : ∀ a, (![0, 0] : Fin 2 → Nat) a + S128x256.size a ≤ S128x256.size a
  h_S128x256 : 0 < S128x256.numel
  transposes_S128x256_p1_0_S256x128 : S128x256.Transposes [1, 0] S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  reduces_S2000x128_S2000 : S2000x128.Reduces [1] S2000
  shapeCasts_S2000_S2000x1 : S2000.ShapeCasts S2000x1
  broadcasts_S2000x1_S2000x128 : S2000x1.Broadcasts S2000x128
  inb_S2000x128_S2000x128_0_0 : ∀ a, (![0, 0] : Fin 2 → Nat) a + S2000x128.size a ≤ S2000x128.size a
  h_S2000x128 : 0 < S2000x128.numel
  dot_S2000x512_S512x256_S2000x256_1_0_0_1_n_n_wf : DotDims.WF S2000x512 S512x256 S2000x256 [1] [0] [0] [1] [] []
  dot_S2000x256_S256x256_S2000x256_1_0_0_1_n_n_wf : DotDims.WF S2000x256 S256x256 S2000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  scatter_S50000_S800000x1_S800000_n_0_0_1_wf : ScatterDims.WF S50000 S800000x1 S800000 [] [0] [0] 1
  dot_S2000x256_S256x128_S2000x128_1_0_0_1_n_n_wf : DotDims.WF S2000x256 S256x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S50000x512.size a
  hwx0_0 : ∀ i : grid0.Coords, EltTy.bits .f32 = 32 ∨ (Rect.block (s := S50000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x512.size a ≤ S256x512.size a
  hwx0_1 : ∀ i : grid0.Coords, EltTy.bits .f32 = 32 ∨ (Rect.block (s := S256x512) S256x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x256.size a ≤ S50000x256.size a
  hwx0_5 : ∀ i : grid0.Coords, EltTy.bits .f32 = 32 ∨ (Rect.block (s := S50000x256) S2000x256.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S50000x256.size a
  hwx1_1 : ∀ i : grid1.Coords, EltTy.bits .f32 = 32 ∨ (Rect.block (s := S50000x256) S2000x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x256.size a ≤ S256x256.size a
  hwx1_2 : ∀ i : grid1.Coords, EltTy.bits .f32 = 32 ∨ (Rect.block (s := S256x256) S256x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x256.size a ≤ S256x256.size a
  hwx1_4 : ∀ i : grid1.Coords, EltTy.bits .f32 = 32 ∨ (Rect.block (s := S256x256) S256x256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x256.size a ≤ S50000x256.size a
  hwx1_5 : ∀ i : grid1.Coords, EltTy.bits .f32 = 32 ∨ (Rect.block (s := S50000x256) S2000x256.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S50000x256.size a
  hwx2_0 : ∀ i : grid2.Coords, EltTy.bits .f32 = 32 ∨ (Rect.block (s := S50000x256) S2000x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x256.size a ≤ S50000x256.size a
  hwx2_1 : ∀ i : grid2.Coords, EltTy.bits .f32 = 32 ∨ (Rect.block (s := S50000x256) S2000x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x256.size a ≤ S128x256.size a
  hwx2_2 : ∀ i : grid2.Coords, EltTy.bits .f32 = 32 ∨ (Rect.block (s := S128x256) S128x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x256.size a ≤ S128x256.size a
  hwx2_4 : ∀ i : grid2.Coords, EltTy.bits .f32 = 32 ∨ (Rect.block (s := S128x256) S128x256.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x128.size a ≤ S50000x128.size a
  hwx2_5 : ∀ i : grid2.Coords, EltTy.bits .f32 = 32 ∨ (Rect.block (s := S50000x128) S2000x128.size (cc2_transform_5 i) (hinb2_5 i)).WholeWords (EltTy.packing .f32)

variable [Facts₀]

def dot_S2000x512_S512x256_S2000x256_1_0_0_1_n_n : DotDims S2000x512 S512x256 S2000x256 where
  lhsContracting := [1]
  rhsContracting := [0]
  lhsNonContracting := [0]
  rhsNonContracting := [1]
  lhsBatch := []
  rhsBatch := []
  wf := dot_S2000x512_S512x256_S2000x256_1_0_0_1_n_n_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S2000x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v25) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6) S2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S256x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v26) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S256x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v27) S2000x256.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v46) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v27) S2000x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg9) S128x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v47) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg11) S128x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v48) S2000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S50000x512 : Shape := ⟨2, ![50000, 512]⟩
abbrev S2x800000 : Shape := ⟨2, ![2, 800000]⟩
abbrev S256x512 : Shape := ⟨2, ![256, 512]⟩
abbrev S256 : Shape := ⟨1, ![256]⟩
abbrev S256x256 : Shape := ⟨2, ![256, 256]⟩
abbrev S128x256 : Shape := ⟨2, ![128, 256]⟩
abbrev S128 : Shape := ⟨1, ![128]⟩
abbrev S1x800000 : Shape := ⟨2, ![1, 800000]⟩
abbrev S800000 : Shape := ⟨1, ![800000]⟩
abbrev S512x256 : Shape := ⟨2, ![512, 256]⟩
abbrev S50000x256 : Shape := ⟨2, ![50000, 256]⟩
abbrev S1x256 : Shape := ⟨2, ![1, 256]⟩
abbrev S_ : Shape := ⟨0, ![]⟩
abbrev S800000x1 : Shape := ⟨2, ![800000, 1]⟩
abbrev S800000x256 : Shape := ⟨2, ![800000, 256]⟩
abbrev S50000 : Shape := ⟨1, ![50000]⟩
abbrev S50000x1 : Shape := ⟨2, ![50000, 1]⟩
abbrev S256x128 : Shape := ⟨2, ![256, 128]⟩
abbrev S50000x128 : Shape := ⟨2, ![50000, 128]⟩
abbrev S1x128 : Shape := ⟨2, ![1, 128]⟩

abbrev nBuf : Space → Nat
  | .hbm => 105
  | .vmem => 0
  | .smem => 0
  | _ => 0

abbrev bufTy : (tb : Table) → Fin (tcTables nBuf tb) → BufTy
  | .hbm, ⟨0, _⟩ => ⟨S50000x512, .f32⟩
  | .hbm, ⟨1, _⟩ => ⟨S2x800000, .i32⟩
  | .hbm, ⟨2, _⟩ => ⟨S256x512, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S256x256, .f32⟩
  | .hbm, ⟨9, _⟩ => ⟨S128x256, .f32⟩
  | .hbm, ⟨10, _⟩ => ⟨S128, .f32⟩
  | .hbm, ⟨11, _⟩ => ⟨S128x256, .f32⟩
  | .hbm, ⟨12, _⟩ => ⟨S1x800000, .i32⟩
  | .hbm, ⟨13, _⟩ => ⟨S800000, .i32⟩
  | .hbm, ⟨14, _⟩ => ⟨S1x800000, .i32⟩
  | .hbm, ⟨15, _⟩ => ⟨S800000, .i32⟩
  | .hbm, ⟨16, _⟩ => ⟨S512x256, .f32⟩
  | .hbm, ⟨17, _⟩ => ⟨S50000x256, .f32⟩
  | .hbm, ⟨18, _⟩ => ⟨S1x256, .f32⟩
  | .hbm, ⟨19, _⟩ => ⟨S50000x256, .f32⟩
  | .hbm, ⟨20, _⟩ => ⟨S50000x256, .f32⟩
  | .hbm, ⟨21, _⟩ => ⟨S256x256, .f32⟩
  | .hbm, ⟨22, _⟩ => ⟨S50000x256, .f32⟩
  | .hbm, ⟨23, _⟩ => ⟨S1x256, .f32⟩
  | .hbm, ⟨24, _⟩ => ⟨S50000x256, .f32⟩
  | .hbm, ⟨25, _⟩ => ⟨S50000x256, .f32⟩
  | .hbm, ⟨26, _⟩ => ⟨S_, .i32⟩
  | .hbm, ⟨27, _⟩ => ⟨S800000, .i32⟩
  | .hbm, ⟨28, _⟩ => ⟨S800000, .i1⟩
  | .hbm, ⟨29, _⟩ => ⟨S_, .i32⟩
  | .hbm, ⟨30, _⟩ => ⟨S800000, .i32⟩
  | .hbm, ⟨31, _⟩ => ⟨S800000, .i32⟩
  | .hbm, ⟨32, _⟩ => ⟨S800000, .i32⟩
  | .hbm, ⟨33, _⟩ => ⟨S800000x1, .i32⟩
  | .hbm, ⟨34, _⟩ => ⟨S800000x256, .f32⟩
  | .hbm, ⟨35, _⟩ => ⟨S_, .f32⟩
  | .hbm, ⟨36, _⟩ => ⟨S50000x256, .f32⟩
  | .hbm, ⟨37, _⟩ => ⟨S800000x1, .i32⟩
  | .hbm, ⟨38, _⟩ => ⟨S50000x256, .f32⟩
  | .hbm, ⟨39, _⟩ => ⟨S_, .f32⟩
  | .hbm, ⟨40, _⟩ => ⟨S800000, .f32⟩
  | .hbm, ⟨41, _⟩ => ⟨S_, .f32⟩
  | .hbm, ⟨42, _⟩ => ⟨S50000, .f32⟩
  | .hbm, ⟨43, _⟩ => ⟨S800000x1, .i32⟩
  | .hbm, ⟨44, _⟩ => ⟨S50000, .f32⟩
  | .hbm, ⟨45, _⟩ => ⟨S_, .f32⟩
  | .hbm, ⟨46, _⟩ => ⟨S50000, .f32⟩
  | .hbm, ⟨47, _⟩ => ⟨S50000, .f32⟩
  | .hbm, ⟨48, _⟩ => ⟨S50000x1, .f32⟩
  | .hbm, ⟨49, _⟩ => ⟨S50000x256, .f32⟩
  | .hbm, ⟨50, _⟩ => ⟨S50000x256, .f32⟩
  | .hbm, ⟨51, _⟩ => ⟨S256x256, .f32⟩
  | .hbm, ⟨52, _⟩ => ⟨S50000x256, .f32⟩
  | .hbm, ⟨53, _⟩ => ⟨S1x256, .f32⟩
  | .hbm, ⟨54, _⟩ => ⟨S50000x256, .f32⟩
  | .hbm, ⟨55, _⟩ => ⟨S50000x256, .f32⟩
  | .hbm, ⟨56, _⟩ => ⟨S256x256, .f32⟩
  | .hbm, ⟨57, _⟩ => ⟨S50000x256, .f32⟩
  | .hbm, ⟨58, _⟩ => ⟨S50000x256, .f32⟩
  | .hbm, ⟨59, _⟩ => ⟨S_, .f32⟩
  | .hbm, ⟨60, _⟩ => ⟨S50000x256, .f32⟩
  | .hbm, ⟨61, _⟩ => ⟨S50000x256, .f32⟩
  | .hbm, ⟨62, _⟩ => ⟨S_, .i32⟩
  | .hbm, ⟨63, _⟩ => ⟨S800000, .i32⟩
  | .hbm, ⟨64, _⟩ => ⟨S800000, .i1⟩
  | .hbm, ⟨65, _⟩ => ⟨S_, .i32⟩
  | .hbm, ⟨66, _⟩ => ⟨S800000, .i32⟩
  | .hbm, ⟨67, _⟩ => ⟨S800000, .i32⟩
  | .hbm, ⟨68, _⟩ => ⟨S800000, .i32⟩
  | .hbm, ⟨69, _⟩ => ⟨S800000x1, .i32⟩
  | .hbm, ⟨70, _⟩ => ⟨S800000x256, .f32⟩
  | .hbm, ⟨71, _⟩ => ⟨S_, .f32⟩
  | .hbm, ⟨72, _⟩ => ⟨S50000x256, .f32⟩
  | .hbm, ⟨73, _⟩ => ⟨S800000x1, .i32⟩
  | .hbm, ⟨74, _⟩ => ⟨S50000x256, .f32⟩
  | .hbm, ⟨75, _⟩ => ⟨S_, .f32⟩
  | .hbm, ⟨76, _⟩ => ⟨S800000, .f32⟩
  | .hbm, ⟨77, _⟩ => ⟨S_, .f32⟩
  | .hbm, ⟨78, _⟩ => ⟨S50000, .f32⟩
  | .hbm, ⟨79, _⟩ => ⟨S800000x1, .i32⟩
  | .hbm, ⟨80, _⟩ => ⟨S50000, .f32⟩
  | .hbm, ⟨81, _⟩ => ⟨S_, .f32⟩
  | .hbm, ⟨82, _⟩ => ⟨S50000, .f32⟩
  | .hbm, ⟨83, _⟩ => ⟨S50000, .f32⟩
  | .hbm, ⟨84, _⟩ => ⟨S50000x1, .f32⟩
  | .hbm, ⟨85, _⟩ => ⟨S50000x256, .f32⟩
  | .hbm, ⟨86, _⟩ => ⟨S50000x256, .f32⟩
  | .hbm, ⟨87, _⟩ => ⟨S256x128, .f32⟩
  | .hbm, ⟨88, _⟩ => ⟨S50000x128, .f32⟩
  | .hbm, ⟨89, _⟩ => ⟨S1x128, .f32⟩
  | .hbm, ⟨90, _⟩ => ⟨S50000x128, .f32⟩
  | .hbm, ⟨91, _⟩ => ⟨S50000x128, .f32⟩
  | .hbm, ⟨92, _⟩ => ⟨S256x128, .f32⟩
  | .hbm, ⟨93, _⟩ => ⟨S50000x128, .f32⟩
  | .hbm, ⟨94, _⟩ => ⟨S50000x128, .f32⟩
  | .hbm, ⟨95, _⟩ => ⟨S50000x128, .f32⟩
  | .hbm, ⟨96, _⟩ => ⟨S_, .f32⟩
  | .hbm, ⟨97, _⟩ => ⟨S50000, .f32⟩
  | .hbm, ⟨98, _⟩ => ⟨S50000x1, .f32⟩
  | .hbm, ⟨99, _⟩ => ⟨S50000x1, .f32⟩
  | .hbm, ⟨100, _⟩ => ⟨S_, .f32⟩
  | .hbm, ⟨101, _⟩ => ⟨S50000x1, .f32⟩
  | .hbm, ⟨102, _⟩ => ⟨S50000x1, .f32⟩
  | .hbm, ⟨103, _⟩ => ⟨S50000x128, .f32⟩
  | .hbm, ⟨104, _⟩ => ⟨S50000x128, .f32⟩
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_c : Ref sig .tc := ⟨.hbm, 26, rfl⟩
abbrev main_v14 : Ref sig .tc := ⟨.hbm, 27, rfl⟩
abbrev main_v15 : Ref sig .tc := ⟨.hbm, 28, rfl⟩
abbrev main_c_0 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_1 : Ref sig .tc := ⟨.hbm, 39, rfl⟩
abbrev main_v24 : Ref sig .tc := ⟨.hbm, 40, rfl⟩
abbrev main_cst_2 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst_3 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_call0_cst : Ref sig .tc := ⟨.hbm, 59, rfl⟩
abbrev main_call0_v0 : Ref sig .tc := ⟨.hbm, 60, rfl⟩
abbrev main_v41 : Ref sig .tc := ⟨.hbm, 61, rfl⟩
abbrev main_c_4 : Ref sig .tc := ⟨.hbm, 62, rfl⟩
abbrev main_v42 : Ref sig .tc := ⟨.hbm, 63, rfl⟩
abbrev main_v43 : Ref sig .tc := ⟨.hbm, 64, rfl⟩
abbrev main_c_5 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_cst_6 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_cst_7 : Ref sig .tc := ⟨.hbm, 75, rfl⟩
abbrev main_v52 : Ref sig .tc := ⟨.hbm, 76, rfl⟩
abbrev main_cst_8 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_cst_9 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_call1_v0 : Ref sig .tc := ⟨.hbm, 95, rfl⟩
abbrev main_call1_cst : Ref sig .tc := ⟨.hbm, 96, rfl⟩
abbrev main_call1_v1 : Ref sig .tc := ⟨.hbm, 97, rfl⟩
abbrev main_call1_v2 : Ref sig .tc := ⟨.hbm, 98, rfl⟩
abbrev main_v69 : Ref sig .tc := ⟨.hbm, 99, rfl⟩
abbrev main_cst_10 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  transposes_S256x512_S512x256_1_0 : S256x512.Transposes [1, 0] S512x256
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  transposes_S256x256_S256x256_1_0 : S256x256.Transposes [1, 0] S256x256
  bcast_S_S800000 : S_.BroadcastsInDim S800000 (![] : Fin 0 → Fin S800000.rank)
  bcast_S800000_S800000x1_0 : S800000.BroadcastsInDim S800000x1 (![0] : Fin 1 → Fin S800000x1.rank)
  bcast_S_S50000x256 : S_.BroadcastsInDim S50000x256 (![] : Fin 0 → Fin S50000x256.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x256_0_1 : S50000x1.BroadcastsInDim S50000x256 (![0, 1] : Fin 2 → Fin S50000x256.rank)
  transposes_S128x256_S256x128_1_0 : S128x256.Transposes [1, 0] S256x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S50000_d1 : S50000x128.ReducesTo [1] S50000
  h_S_ : 0 < S_.numel
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  dot_S50000x512_S512x256_S50000x256_1_0_0_1_n_n_wf : DotDims.WF S50000x512 S512x256 S50000x256 [1] [0] [0] [1] [] []
  dot_S50000x256_S256x256_S50000x256_1_0_0_1_n_n_wf : DotDims.WF S50000x256 S256x256 S50000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  scatter_S50000_S800000x1_S800000_n_0_0_1_wf : ScatterDims.WF S50000 S800000x1 S800000 [] [0] [0] 1
  dot_S50000x256_S256x128_S50000x128_1_0_0_1_n_n_wf : DotDims.WF S50000x256 S256x128 S50000x128 [1] [0] [0] [1] [] []

variable [Facts₀]

def dot_S50000x512_S512x256_S50000x256_1_0_0_1_n_n : DotDims S50000x512 S512x256 S50000x256 where
  lhsContracting := [1]
  rhsContracting := [0]
  lhsNonContracting := [0]
  rhsNonContracting := [1]
  lhsBatch := []
  rhsBatch := []
  wf := dot_S50000x512_S512x256_S50000x256_1_0_0_1_n_n_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf

class Facts : Prop extends Facts₀ where

variable [Facts]
-- ==== Proof.KRun.lean ====
/-
  The idealized kernel's run with its result named.  The program is three grid regions among stretches of host
  operations; its buffers' contents at each boundary are a fold from the launch memory (the generated `Gen.W0 … Gen.W6`).
  Every weakly fair execution terminates with every unscoped buffer at the last boundary's contents: in particular the
  result buffer holds `Gen.W6 m ρ c` at its reference, and each argument is as launched.
-/
import proofs.«103946_j64003602645175_1_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with every unscoped buffer of every core at
    the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c => h c)

/-- The run with the result buffer and the arguments read off the last boundary's contents. -/
theorem run_named : θ_run defs (onTc (τ := τ) (main (F := F))) ⟨m, fun _ => 0, ρ⟩ (fun r => ∀ c : Dev nD,
      r.2.mem ((c.tc : Thread nD τ).loc main_v48) = W6 m ρ c (Proc.devRef .tc main_v48)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c =>
      ⟨h c _ (mem_uc main_v48 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c)⟩)
    (run_all m ρ)

end Cert.KernelIdeal.Hand

end
-- ==== Proof.Spec.lean ====
/-
  The mathematics both programs compute, over the extended reals, index by index.

  A node-feature matrix is a function of a row (a node) and a column (a feature).  Three row-wise stages are
  joined by a neighbourhood average that both programs spell with the same host operations:

  * `lin x W b`: the affine map x·Wᵀ + b, entry (p, q) the sum over k of x(p, k)·W(q, k) plus b(0, q), the bias
    a one-row array;
  * `pre`: two affine maps one after the other;
  * `comb mean h Wl bl Wr`: (mean·Wlᵀ + bl) + h·Wrᵀ, the neighbours' average and the node's own features
    combined; `convRelu` is its positive part, `convNorm` divides each row by its Euclidean length, the length
    bounded below by a small literal.

  Every entry of a stage's result depends on ONE row of each node-feature operand (and on all of each weight):
  that is what lets a program compute the stage over blocks of rows.
-/
import Idealize.ShloMosaic.Lib.ValueIdx
import Idealize.ShloMosaic.PureOps.Ideal

noncomputable section

namespace Sage

open Idealize.ShloMosaic Idealize.ShloMosaic.ValueIdx

/-- An `a × b` array of extended reals. -/
abbrev Mat (a b : ℕ) := (⟨2, ![a, b]⟩ : Shape).Idx → EReal

variable {n K b : ℕ}

/-- A vector of `b` entries as a one-row array. -/
def row1 (v : (⟨1, ![b]⟩ : Shape).Idx → EReal) : Mat 1 b := fun i => v (ix1 (i 1))

theorem row1_ix2 (v : (⟨1, ![b]⟩ : Shape).Idx → EReal) (u : Fin 1) (q : Fin b) : row1 v (ix2 u q) = v (ix1 q) := rfl

/-- Row `p` of `x` against row `q` of `W`: the entry (p, q) of x·Wᵀ. -/
def dotRow (x : Mat n K) (W : Mat b K) (p : Fin n) (q : Fin b) : EReal := ∑ k : Fin K, x (ix2 p k) * W (ix2 q k)

/-- The entry (p, q) of x·Wᵀ + bias. -/
def linAt (x : Mat n K) (W : Mat b K) (bias : Mat 1 b) (p : Fin n) (q : Fin b) : EReal :=
  dotRow x W p q + bias (ix2 (0 : Fin 1) q)

/-- x·Wᵀ + bias. -/
def lin (x : Mat n K) (W : Mat b K) (bias : Mat 1 b) : Mat n b := fun i => linAt x W bias (i 0) (i 1)

theorem lin_ix2 (x : Mat n K) (W : Mat b K) (bias : Mat 1 b) (p : Fin n) (q : Fin b) :
    lin x W bias (ix2 p q) = linAt x W bias p q := rfl

/-- Two affine maps one after the other. -/
def pre {K₂ c : ℕ} (x : Mat n K) (W₁ : Mat K₂ K) (b₁ : Mat 1 K₂) (W₂ : Mat c K₂) (b₂ : Mat 1 c) : Mat n c :=
  lin (lin x W₁ b₁) W₂ b₂

/-- The entry (p, q) of (mean·Wlᵀ + bl) + h·Wrᵀ. -/
def combAt (mean h : Mat n K) (Wl : Mat b K) (bl : Mat 1 b) (Wr : Mat b K) (p : Fin n) (q : Fin b) : EReal :=
  linAt mean Wl bl p q + dotRow h Wr p q

/-- The positive part of the combination. -/
def convRelu (mean h : Mat n K) (Wl : Mat b K) (bl : Mat 1 b) (Wr : Mat b K) : Mat n b :=
  fun i => max (combAt mean h Wl bl Wr (i 0) (i 1)) (Ideal.ofBits .f32 0x00000000#32)

theorem convRelu_ix2 (mean h : Mat n K) (Wl : Mat b K) (bl : Mat 1 b) (Wr : Mat b K) (p : Fin n) (q : Fin b) :
    convRelu mean h Wl bl Wr (ix2 p q) = max (combAt mean h Wl bl Wr p q) (Ideal.ofBits .f32 0x00000000#32) := rfl

/-- The Euclidean length of row `p` of the combination, bounded below by the literal. -/
def rowLen (mean h : Mat n K) (Wl : Mat b K) (bl : Mat 1 b) (Wr : Mat b K) (p : Fin n) : EReal :=
  max (Ideal.sqrt (∑ j : Fin b, combAt mean h Wl bl Wr p j * combAt mean h Wl bl Wr p j)) (Ideal.ofBits .f32 0x2B8CBCCC#32)

/-- The combination, each row divided by its length. -/
def convNorm (mean h : Mat n K) (Wl : Mat b K) (bl : Mat 1 b) (Wr : Mat b K) : Mat n b :=
  fun i => Ideal.div (combAt mean h Wl bl Wr (i 0) (i 1)) (rowLen mean h Wl bl Wr (i 0))

theorem convNorm_ix2 (mean h : Mat n K) (Wl : Mat b K) (bl : Mat 1 b) (Wr : Mat b K) (p : Fin n) (q : Fin b) :
    convNorm mean h Wl bl Wr (ix2 p q) = Ideal.div (combAt mean h Wl bl Wr p q) (rowLen mean h Wl bl Wr p) := rfl

/-! ### Each entry depends on one row of the node-feature operands -/

/-- Rows that agree give the same row product. -/
theorem dotRow_congr {n' : ℕ} (x : Mat n K) (x' : Mat n' K) (W : Mat b K) (p : Fin n) (p' : Fin n') (q : Fin b)
    (hx : ∀ k, x (ix2 p k) = x' (ix2 p' k)) : dotRow x W p q = dotRow x' W p' q :=
  Finset.sum_congr rfl fun k _ => by rw [hx k]

theorem linAt_congr {n' : ℕ} (x : Mat n K) (x' : Mat n' K) (W : Mat b K) (bias : Mat 1 b) (p : Fin n) (p' : Fin n') (q : Fin b)
    (hx : ∀ k, x (ix2 p k) = x' (ix2 p' k)) : linAt x W bias p q = linAt x' W bias p' q := by
  unfold linAt; rw [dotRow_congr x x' W p p' q hx]

theorem combAt_congr {n' : ℕ} (mean h : Mat n K) (mean' h' : Mat n' K) (Wl : Mat b K) (bl : Mat 1 b) (Wr : Mat b K)
    (p : Fin n) (p' : Fin n') (q : Fin b)
    (hm : ∀ k, mean (ix2 p k) = mean' (ix2 p' k)) (hh : ∀ k, h (ix2 p k) = h' (ix2 p' k)) :
    combAt mean h Wl bl Wr p q = combAt mean' h' Wl bl Wr p' q := by
  unfold combAt; rw [linAt_congr mean mean' Wl bl p p' q hm, dotRow_congr h h' Wr p p' q hh]

theorem rowLen_congr {n' : ℕ} (mean h : Mat n K) (mean' h' : Mat n' K) (Wl : Mat b K) (bl : Mat 1 b) (Wr : Mat b K)
    (p : Fin n) (p' : Fin n')
    (hm : ∀ k, mean (ix2 p k) = mean' (ix2 p' k)) (hh : ∀ k, h (ix2 p k) = h' (ix2 p' k)) :
    rowLen mean h Wl bl Wr p = rowLen mean' h' Wl bl Wr p' := by
  unfold rowLen
  have e : ∀ j, combAt mean h Wl bl Wr p j = combAt mean' h' Wl bl Wr p' j :=
    fun j => combAt_congr mean h mean' h' Wl bl Wr p p' j hm hh
  simp only [e]

end Sage

end
-- ==== Proof.LibLayout.lean ====
/-
  Three small readings of layout operations at an index given by coordinates, for the column forms a row reduction
  with kept dimensions produces: a vector of `a` entries cast to one column `[a, 1]`, a column broadcast along
  the rows `[a, 1] → [a, b]`, and the index a row sum inserts on the reduced axis.
-/
import Idealize.ShloMosaic.Lib.ValueLayout
import Idealize.ShloMosaic.PureOps.Ideal.Laws

namespace Cert.Attn.Layout

open Idealize.ShloMosaic Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The index a sum along the rows inserts: row `p` with column `k` put back is `(p, k)`. -/
theorem lift_row {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-- A sum along the rows of an `[a, b]` array of extended reals, read at row `p`: the sum of the row's entries. -/
theorem rowSum_apply {a b : ℕ} (src : FVec Ideal ⟨2, ![a, b]⟩ .f32) (h : (⟨2, ![a, b]⟩ : Shape).Reduces [1] (⟨1, ![a]⟩ : Shape))
    (hφ : FKind.Formats .f32) (hacc : (0x00000000#32 : BitVec 32) = FKind.add.neutral .f32 hφ) (p : Fin a) :
    multiReduction .add [1] (⟨1, ![a]⟩ : Shape) src 0x00000000#32 h hφ hacc (ix1 p) = ∑ k : Fin b, src (ix2 p k) := by
  refine (Ideal.multiReduction_add_single src 0x00000000#32 h hφ hacc (ix1 p)).trans ?_
  exact Finset.sum_congr rfl fun k _ => congrArg src (lift_row h p k)

end Cert.Attn.Layout
-- ==== Proof.LibMatmulIx.lean ====
/-
  A matrix product of an `[a, K]` array with a `[K, b]` array read at the entry `(p, q)`, at the ideal values:
  the sum over `k` of the left operand's `(p, k)` entry times the right operand's `(k, q)` entry — for a kernel's
  product accumulated into the zero splat (`matmul_zero_ix2`) and for the host's product (`dotGeneral_ix2`), stated
  for any dimension numbers that contract the left operand's columns with the right operand's rows (the four
  coordinate facts `hl0 … hr1`, which a literal record proves by evaluation).
-/
import Idealize.ShloMosaic.Lib.ValueIdx
import Idealize.ShloMosaic.PureOps.Ideal.Laws

namespace MatmulIx

open Idealize.ShloMosaic Idealize.ShloMosaic.ValueIdx

variable {a K b : ℕ} {φ₁ φ₂ : FTy}

/-- The contraction's sum re-indexed by the one contracted coordinate. -/
theorem sum_contr (D : DotDims ⟨2, ![a, K]⟩ ⟨2, ![K, b]⟩ ⟨2, ![a, b]⟩) (hr : D.contr.rank = 1)
    (hs : D.contr.size ⟨0, by omega⟩ = K)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (x : (⟨2, ![a, K]⟩ : Shape).Idx → EReal) (w : (⟨2, ![K, b]⟩ : Shape).Idx → EReal) (p : Fin a) (q : Fin b) :
    ∑ k : D.contr.Idx, x (D.lhsIdx (ix2 p q) k) * w (D.rhsIdx (ix2 p q) k) = ∑ k : Fin K, x (ix2 p k) * w (ix2 k q) := by
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun c => Fin.ext (by
    match c with
    | ⟨0, _⟩ => exact hl0 _ _
    | ⟨1, _⟩ => exact (hl1 _ _).trans hk)
  have er : D.rhsIdx (ix2 p q) ((contrEquiv1 D K hr hs).symm k) = ix2 k q := funext fun c => Fin.ext (by
    match c with
    | ⟨0, _⟩ => exact (hr0 _ _).trans hk
    | ⟨1, _⟩ => exact hr1 _ _)
  rw [el, er]

/-- A kernel's matrix product into the zero splat, at `(p, q)`: the row of the left operand times the column of the
    right one. -/
theorem matmul_zero_ix2 (D : DotDims ⟨2, ![a, K]⟩ ⟨2, ![K, b]⟩ ⟨2, ![a, b]⟩) (hr : D.contr.rank = 1)
    (hs : D.contr.size ⟨0, by omega⟩ = K)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (prec : Option ContractPrecision)
    (x : FVec Ideal ⟨2, ![a, K]⟩ φ₁) (w : FVec Ideal ⟨2, ![K, b]⟩ φ₂) (p : Fin a) (q : Fin b) :
    matmul D prec x w (constant (F := Ideal) ⟨2, ![a, b]⟩ .f32 0x00000000#32) (ix2 p q)
      = ∑ k : Fin K, x (ix2 p k) * w (ix2 k q) :=
  (Ideal.matmul_constant_zero_apply D prec x w (ix2 p q)).trans (sum_contr D hr hs hl0 hl1 hr0 hr1 x w p q)

/-- The host's matrix product at `(p, q)`: the same sum. -/
theorem dotGeneral_ix2 (D : DotDims ⟨2, ![a, K]⟩ ⟨2, ![K, b]⟩ ⟨2, ![a, b]⟩) (hr : D.contr.rank = 1)
    (hs : D.contr.size ⟨0, by omega⟩ = K)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (prec : Option ContractPrecision)
    (x : FVec Ideal ⟨2, ![a, K]⟩ φ₁) (w : FVec Ideal ⟨2, ![K, b]⟩ φ₂) (p : Fin a) (q : Fin b) :
    Host.dotGeneral D prec x w (ix2 p q) = ∑ k : Fin K, x (ix2 p k) * w (ix2 k q) :=
  (Ideal.dotGeneral_apply D prec .single x w (ix2 p q)).trans (sum_contr D hr hs hl0 hl1 hr0 hr1 x w p q)

end MatmulIx
-- ==== Proof.LibLinBody.lean ====
/-
  Two readings of what a blocked linear layer's body computes, at the ideal values, for any sizes.

  A body that forms x·Wᵀ transposes the weight first and accumulates the product into the zero array; a change of float
  format on the way is the identity on the extended reals.  So entry (p, q) of the product is the sum over k of
  x(p, k)·W(q, k): a row of x against a ROW of W (`matmulT_eq`).  A one-row bias recast to its own shape and spread over
  the rows reads, at (p, q), the bias at (0, q) (`biasRows_eq`).  The dimension record is any one that contracts the left
  operand's columns with the right operand's rows (the four coordinate facts, which a literal record proves by evaluation).
-/
import proofs.«103946_j64003602645175_1_alg».proof.Proof.LibMatmulIx
import Idealize.ShloMosaic.Lib.ValueLayout
import Idealize.ShloMosaic.Lib.Pipeline.Value

namespace LinBody

open Idealize.ShloMosaic Idealize.ShloMosaic.ValueIdx

variable {a K b : ℕ}

/-- A product with the transposed weight, into zero, the operands cut to the narrow format first: entry (p, q) is row p of
    x against row q of W. -/
theorem matmulT_eq (D : DotDims ⟨2, ![a, K]⟩ ⟨2, ![K, b]⟩ ⟨2, ![a, b]⟩) (hr : D.contr.rank = 1)
    (hs : D.contr.size ⟨0, by omega⟩ = K)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (x : FVec Ideal ⟨2, ![a, K]⟩ .f32) (W : FVec Ideal ⟨2, ![b, K]⟩ .f32)
    (hx : FTy.bf16.bits < FTy.f32.bits) (ht : (⟨2, ![b, K]⟩ : Shape).Transposes [1, 0] ⟨2, ![K, b]⟩) :
    matmul D none (truncf .bf16 x hx) (transpose ⟨2, ![K, b]⟩ [1, 0] (truncf .bf16 W hx) ht)
        (constant (F := Ideal) ⟨2, ![a, b]⟩ .f32 0x00000000#32)
      = fun i => ∑ k : Fin K, x (ix2 (i 0) k) * W (ix2 (i 1) k) := by
  funext i
  obtain ⟨p, q, rfl⟩ : ∃ (p : Fin a) (q : Fin b), i = ix2 p q := ⟨i 0, i 1, eq_ix2 i⟩
  refine (MatmulIx.matmul_zero_ix2 D hr hs hl0 hl1 hr0 hr1 none _ _ p q).trans ?_
  refine Finset.sum_congr rfl fun k _ => ?_
  rw [transpose_ix2_apply]
  rfl

/-- A one-row bias, recast to its own shape, spread over the rows. -/
theorem biasRows_eq (v : FVec Ideal ⟨2, ![1, b]⟩ .f32) (hs : (⟨2, ![1, b]⟩ : Shape).ShapeCasts ⟨2, ![1, b]⟩)
    (hb : (⟨2, ![1, b]⟩ : Shape).Broadcasts ⟨2, ![a, b]⟩) :
    broadcastTo ⟨2, ![a, b]⟩ (shapeCast ⟨2, ![1, b]⟩ v hs) hb = fun i => v (ix2 (0 : Fin 1) (i 1)) := by
  rw [shapeCast_self]
  funext i
  obtain ⟨p, q, rfl⟩ : ∃ (p : Fin a) (q : Fin b), i = ix2 p q := ⟨i 0, i 1, eq_ix2 i⟩
  exact broadcastTo_1b_ab_apply v hb p q

end LinBody
-- ==== Proof.Payload.lean ====
/-
  What each kernel body stores, as a function of the blocks it loads, at the ideal values.

  A change of float format is the identity on the extended reals, and a matrix product accumulated into the zero
  array is the plain sum over the contracted index; the bodies transpose each weight before the product, so a row of
  the activations meets a ROW of the weight.  So:
  * the first body stores (x·W₁ᵀ + b₁)·W₂ᵀ + b₂ of its block of rows x;
  * the second stores the positive part of (mean·Wlᵀ + bl) + h·Wrᵀ;
  * the third stores that combination with every row divided by its Euclidean length (the row's sum of squares is a
    sum along the lanes, its root kept as a column and bounded below by the literal, then spread back over the row).
-/
import proofs.«103946_j64003602645175_1_alg».proof.Proof.Gen.KernelIdeal.Skeleton
import proofs.«103946_j64003602645175_1_alg».proof.Proof.Spec
import proofs.«103946_j64003602645175_1_alg».proof.Proof.LibLayout
import proofs.«103946_j64003602645175_1_alg».proof.Proof.LibMatmulIx
import proofs.«103946_j64003602645175_1_alg».proof.Proof.LibLinBody
import Idealize.ShloMosaic.Lib.ValueLayout
import Idealize.ShloMosaic.Lib.Pipeline.Value

noncomputable section

namespace Cert.KernelIdeal.Hand

open Cert.KernelIdeal Cert.KernelIdeal.Gen Idealize.ShloMosaic Idealize.ShloMosaic.ValueIdx

/-! ### The shapes of the body's operations, for any sizes -/

section Generic

variable {a K b : ℕ}

/-- The affine map as the bodies spell it: the product with the transposed weight plus the bias spread over the rows. -/
theorem linBody_eq (D : DotDims ⟨2, ![a, K]⟩ ⟨2, ![K, b]⟩ ⟨2, ![a, b]⟩) (hr : D.contr.rank = 1)
    (hs : D.contr.size ⟨0, by omega⟩ = K)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (x : FVec Ideal ⟨2, ![a, K]⟩ .f32) (W : FVec Ideal ⟨2, ![b, K]⟩ .f32) (v : FVec Ideal ⟨2, ![1, b]⟩ .f32)
    (hx : FTy.bf16.bits < FTy.f32.bits) (ht : (⟨2, ![b, K]⟩ : Shape).Transposes [1, 0] ⟨2, ![K, b]⟩)
    (hsc : (⟨2, ![1, b]⟩ : Shape).ShapeCasts ⟨2, ![1, b]⟩) (hb : (⟨2, ![1, b]⟩ : Shape).Broadcasts ⟨2, ![a, b]⟩) :
    addf (matmul D none (truncf .bf16 x hx) (transpose ⟨2, ![K, b]⟩ [1, 0] (truncf .bf16 W hx) ht)
        (constant (F := Ideal) ⟨2, ![a, b]⟩ .f32 0x00000000#32))
      (broadcastTo ⟨2, ![a, b]⟩ (shapeCast ⟨2, ![1, b]⟩ v hsc) hb) = Sage.lin x W v := by
  rw [LinBody.matmulT_eq D hr hs hl0 hl1 hr0 hr1 x W hx ht, LinBody.biasRows_eq v hsc hb]
  rfl

/-- The combination as the bodies spell it. -/
theorem combBody_eq (D : DotDims ⟨2, ![a, K]⟩ ⟨2, ![K, b]⟩ ⟨2, ![a, b]⟩) (hr : D.contr.rank = 1)
    (hs : D.contr.size ⟨0, by omega⟩ = K)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (mean h : FVec Ideal ⟨2, ![a, K]⟩ .f32) (Wl Wr : FVec Ideal ⟨2, ![b, K]⟩ .f32) (bl : FVec Ideal ⟨2, ![1, b]⟩ .f32)
    (hx : FTy.bf16.bits < FTy.f32.bits) (ht : (⟨2, ![b, K]⟩ : Shape).Transposes [1, 0] ⟨2, ![K, b]⟩)
    (hsc : (⟨2, ![1, b]⟩ : Shape).ShapeCasts ⟨2, ![1, b]⟩) (hb : (⟨2, ![1, b]⟩ : Shape).Broadcasts ⟨2, ![a, b]⟩)
    (hxx : (⟨2, ![a, K]⟩ : Shape).ShapeCasts ⟨2, ![a, K]⟩) :
    addf (addf (matmul D none (truncf .bf16 (shapeCast ⟨2, ![a, K]⟩ mean hxx) hx) (transpose ⟨2, ![K, b]⟩ [1, 0] (truncf .bf16 Wl hx) ht)
          (constant (F := Ideal) ⟨2, ![a, b]⟩ .f32 0x00000000#32))
        (broadcastTo ⟨2, ![a, b]⟩ (shapeCast ⟨2, ![1, b]⟩ bl hsc) hb))
      (matmul D none (truncf .bf16 (shapeCast ⟨2, ![a, K]⟩ h hxx) hx) (transpose ⟨2, ![K, b]⟩ [1, 0] (truncf .bf16 Wr hx) ht)
        (constant (F := Ideal) ⟨2, ![a, b]⟩ .f32 0x00000000#32))
      = fun i => Sage.combAt mean h Wl bl Wr (i 0) (i 1) := by
  rw [shapeCast_self mean hxx, shapeCast_self h hxx, linBody_eq D hr hs hl0 hl1 hr0 hr1 mean Wl bl hx ht hsc hb,
    LinBody.matmulT_eq D hr hs hl0 hl1 hr0 hr1 h Wr hx ht]
  rfl

end Generic

/-! ### The three products' dimension records contract the left operand's columns with the right operand's rows -/

theorem d512_l0 (i : S2000x256.Idx) (q : dot_S2000x512_S512x256_S2000x256_1_0_0_1_n_n.contr.Idx) :
    (dot_S2000x512_S512x256_S2000x256_1_0_0_1_n_n.lhsIdx i q 0).val = (i 0).val := by
  unfold DotDims.lhsIdx
  rw [dif_neg (show ¬(0 : Fin S2000x512.rank) ∈ dot_S2000x512_S512x256_S2000x256_1_0_0_1_n_n.lhsBatch by decide), dif_pos (show (0 : Fin S2000x512.rank) ∈ dot_S2000x512_S512x256_S2000x256_1_0_0_1_n_n.lhsNonContracting by decide)]
  rfl
theorem d512_r1 (i : S2000x256.Idx) (q : dot_S2000x512_S512x256_S2000x256_1_0_0_1_n_n.contr.Idx) :
    (dot_S2000x512_S512x256_S2000x256_1_0_0_1_n_n.rhsIdx i q 1).val = (i 1).val := by
  unfold DotDims.rhsIdx
  rw [dif_neg (show ¬(1 : Fin S512x256.rank) ∈ dot_S2000x512_S512x256_S2000x256_1_0_0_1_n_n.rhsBatch by decide), dif_pos (show (1 : Fin S512x256.rank) ∈ dot_S2000x512_S512x256_S2000x256_1_0_0_1_n_n.rhsNonContracting by decide)]
  rfl
theorem d256_l0 (i : S2000x256.Idx) (q : dot_S2000x256_S256x256_S2000x256_1_0_0_1_n_n.contr.Idx) :
    (dot_S2000x256_S256x256_S2000x256_1_0_0_1_n_n.lhsIdx i q 0).val = (i 0).val := by
  unfold DotDims.lhsIdx
  rw [dif_neg (show ¬(0 : Fin S2000x256.rank) ∈ dot_S2000x256_S256x256_S2000x256_1_0_0_1_n_n.lhsBatch by decide), dif_pos (show (0 : Fin S2000x256.rank) ∈ dot_S2000x256_S256x256_S2000x256_1_0_0_1_n_n.lhsNonContracting by decide)]
  rfl
theorem d256_r1 (i : S2000x256.Idx) (q : dot_S2000x256_S256x256_S2000x256_1_0_0_1_n_n.contr.Idx) :
    (dot_S2000x256_S256x256_S2000x256_1_0_0_1_n_n.rhsIdx i q 1).val = (i 1).val := by
  unfold DotDims.rhsIdx
  rw [dif_neg (show ¬(1 : Fin S256x256.rank) ∈ dot_S2000x256_S256x256_S2000x256_1_0_0_1_n_n.rhsBatch by decide), dif_pos (show (1 : Fin S256x256.rank) ∈ dot_S2000x256_S256x256_S2000x256_1_0_0_1_n_n.rhsNonContracting by decide)]
  rfl
theorem d128_l0 (i : S2000x128.Idx) (q : dot_S2000x256_S256x128_S2000x128_1_0_0_1_n_n.contr.Idx) :
    (dot_S2000x256_S256x128_S2000x128_1_0_0_1_n_n.lhsIdx i q 0).val = (i 0).val := by
  unfold DotDims.lhsIdx
  rw [dif_neg (show ¬(0 : Fin S2000x256.rank) ∈ dot_S2000x256_S256x128_S2000x128_1_0_0_1_n_n.lhsBatch by decide), dif_pos (show (0 : Fin S2000x256.rank) ∈ dot_S2000x256_S256x128_S2000x128_1_0_0_1_n_n.lhsNonContracting by decide)]
  rfl
theorem d128_r1 (i : S2000x128.Idx) (q : dot_S2000x256_S256x128_S2000x128_1_0_0_1_n_n.contr.Idx) :
    (dot_S2000x256_S256x128_S2000x128_1_0_0_1_n_n.rhsIdx i q 1).val = (i 1).val := by
  unfold DotDims.rhsIdx
  rw [dif_neg (show ¬(1 : Fin S256x128.rank) ∈ dot_S2000x256_S256x128_S2000x128_1_0_0_1_n_n.rhsBatch by decide), dif_pos (show (1 : Fin S256x128.rank) ∈ dot_S2000x256_S256x128_S2000x128_1_0_0_1_n_n.rhsNonContracting by decide)]
  rfl

/-! ### The three bodies -/

/-- The first body stores two affine maps, one after the other, of its block of rows. -/
theorem pay0_eq (x0 : Vec Ideal S2000x512 .f32) (x1 : Vec Ideal S256x512 .f32) (x2 : Vec Ideal S1x256 .f32)
    (x3 : Vec Ideal S256x256 .f32) (x4 : Vec Ideal S1x256 .f32) :
    k0_pay1 (F := Ideal) x0 x1 x2 x3 x4 = Sage.pre x0 x1 x2 x3 x4 := by
  unfold k0_pay1 Sage.pre
  dsimp only
  rw [linBody_eq dot_S2000x512_S512x256_S2000x256_1_0_0_1_n_n rfl rfl d512_l0
      (fun i q => dot_S2000x512_S512x256_S2000x256_1_0_0_1_n_n.lhsIdx_val_of_single rfl i q)
      (fun i q => dot_S2000x512_S512x256_S2000x256_1_0_0_1_n_n.rhsIdx_val_of_single rfl i q) d512_r1 x0 x1 x2]
  exact linBody_eq dot_S2000x256_S256x256_S2000x256_1_0_0_1_n_n rfl rfl d256_l0
      (fun i q => dot_S2000x256_S256x256_S2000x256_1_0_0_1_n_n.lhsIdx_val_of_single rfl i q)
      (fun i q => dot_S2000x256_S256x256_S2000x256_1_0_0_1_n_n.rhsIdx_val_of_single rfl i q) d256_r1 (Sage.lin x0 x1 x2) x3 x4 _ _ _ _

/-- The second body stores the positive part of the combination of its two blocks of rows. -/
theorem pay1_eq (mean h : Vec Ideal S2000x256 .f32) (Wl Wr : Vec Ideal S256x256 .f32) (bl : Vec Ideal S1x256 .f32) :
    k1_pay1 (F := Ideal) mean h Wl Wr bl = Sage.convRelu mean h Wl bl Wr := by
  unfold k1_pay1
  dsimp only
  rw [combBody_eq dot_S2000x256_S256x256_S2000x256_1_0_0_1_n_n rfl rfl d256_l0
      (fun i q => dot_S2000x256_S256x256_S2000x256_1_0_0_1_n_n.lhsIdx_val_of_single rfl i q)
      (fun i q => dot_S2000x256_S256x256_S2000x256_1_0_0_1_n_n.rhsIdx_val_of_single rfl i q) d256_r1 mean h Wl Wr bl]
  rfl

/-- The third body stores the combination with each row divided by its length. -/
theorem pay2_eq (mean h : Vec Ideal S2000x256 .f32) (Wl Wr : Vec Ideal S128x256 .f32) (bl : Vec Ideal S1x128 .f32) :
    k2_pay1 (F := Ideal) mean h Wl Wr bl = Sage.convNorm mean h Wl bl Wr := by
  unfold k2_pay1
  dsimp only
  rw [combBody_eq dot_S2000x256_S256x128_S2000x128_1_0_0_1_n_n rfl rfl d128_l0
      (fun i q => dot_S2000x256_S256x128_S2000x128_1_0_0_1_n_n.lhsIdx_val_of_single rfl i q)
      (fun i q => dot_S2000x256_S256x128_S2000x128_1_0_0_1_n_n.rhsIdx_val_of_single rfl i q) d128_r1 mean h Wl Wr bl]
  funext i
  obtain ⟨p, q, rfl⟩ : ∃ (p : Fin 2000) (q : Fin 128), i = ix2 p q := ⟨i 0, i 1, eq_ix2 i⟩
  rw [Sage.convNorm_ix2]
  refine (divf_apply _ _ (ix2 p q)).trans ?_
  refine congrArg (Ideal.div _) ?_
  refine (Cert.Attn.Layout.broadcastTo_a1_ab_apply _ _ p q).trans ?_
  refine (maximumf_apply _ _ (ix2 p (0 : Fin 1))).trans ?_
  unfold Sage.rowLen
  refine congrArg (max · _) ?_
  show Ideal.sqrt (shapeCast S2000x1 _ _ (ix2 p (0 : Fin 1))) = _
  refine congrArg Ideal.sqrt ?_
  refine (Cert.Attn.Layout.shapeCast_a_a1_apply _ _ p (0 : Fin 1)).trans ?_
  exact Cert.Attn.Layout.rowSum_apply _ _ _ _ p

end Cert.KernelIdeal.Hand

end
-- ==== Proof.SpecRows.lean ====
/-
  Blocks of rows.  An array `xb` of 2000-odd rows is the block of `X` starting at row `r₀` when its row `y` is row
  `r₀ + y` of `X`.  Every stage's entry depends on one row of each node-feature operand, so a stage computed on the
  blocks is the block of the stage computed on the whole arrays: entry (y, q) of the one is entry (r₀ + y, q) of the other.
-/
import proofs.«103946_j64003602645175_1_alg».proof.Proof.Spec

noncomputable section

namespace Sage

open Idealize.ShloMosaic Idealize.ShloMosaic.ValueIdx

variable {n n' K b : ℕ}

/-- `xb` is the block of rows of `X` that starts at row `r₀`. -/
def RowBlock (xb : Mat n' K) (X : Mat n K) (r₀ : ℕ) : Prop :=
  ∀ (y : Fin n') (p : Fin n) (k : Fin K), p.val = r₀ + y.val → xb (ix2 y k) = X (ix2 p k)

/-- The affine map of a block of rows is the block of the affine map. -/
theorem RowBlock.lin {xb : Mat n' K} {X : Mat n K} {r₀ : ℕ} (h : RowBlock xb X r₀) (W : Mat b K) (bias : Mat 1 b) :
    RowBlock (Sage.lin xb W bias) (Sage.lin X W bias) r₀ := fun y p q hp => by
  rw [lin_ix2, lin_ix2]
  exact linAt_congr xb X W bias y p q fun k => h y p k hp

/-- Two indices with the same coordinates are the same index. -/
theorem ix2_of_val {a c : ℕ} (i : (⟨2, ![a, c]⟩ : Shape).Idx) (p : Fin a) (q : Fin c) (h0 : (i 0).val = p.val) (h1 : (i 1).val = q.val) :
    i = ix2 p q :=
  funext fun a => match a with
    | ⟨0, _⟩ => Fin.ext h0
    | ⟨1, _⟩ => Fin.ext h1

/-- A block read at an index of the block is the array read at the index `r₀` rows further down. -/
theorem RowBlock.at {c : ℕ} {xb : Mat n' c} {X : Mat n c} {r₀ : ℕ} (h : RowBlock xb X r₀)
    (j : (⟨2, ![n', c]⟩ : Shape).Idx) (i : (⟨2, ![n, c]⟩ : Shape).Idx)
    (h0 : (i 0).val = r₀ + (j 0).val) (h1 : (i 1).val = (j 1).val) : xb j = X i := by
  have ej := eq_ix2 j
  have ei : i = ix2 (i 0) (j 1) := ix2_of_val i (i 0) (j 1) rfl h1
  rw [ej, ei]
  exact h (j 0) (i 0) (j 1) h0

theorem pre_rowBlock {K₂ c : ℕ} {xb : Mat n' K} {X : Mat n K} {r₀ : ℕ} (h : RowBlock xb X r₀)
    (W₁ : Mat K₂ K) (b₁ : Mat 1 K₂) (W₂ : Mat c K₂) (b₂ : Mat 1 c) :
    RowBlock (pre xb W₁ b₁ W₂ b₂) (pre X W₁ b₁ W₂ b₂) r₀ :=
  (h.lin W₁ b₁).lin W₂ b₂

theorem convRelu_rowBlock {mb hb : Mat n' K} {M H : Mat n K} {r₀ : ℕ} (hm : RowBlock mb M r₀) (hh : RowBlock hb H r₀)
    (Wl : Mat b K) (bl : Mat 1 b) (Wr : Mat b K) :
    RowBlock (convRelu mb hb Wl bl Wr) (convRelu M H Wl bl Wr) r₀ := fun y p q hp => by
  rw [convRelu_ix2, convRelu_ix2,
    combAt_congr mb hb M H Wl bl Wr y p q (fun k => hm y p k hp) (fun k => hh y p k hp)]

theorem convNorm_rowBlock {mb hb : Mat n' K} {M H : Mat n K} {r₀ : ℕ} (hm : RowBlock mb M r₀) (hh : RowBlock hb H r₀)
    (Wl : Mat b K) (bl : Mat 1 b) (Wr : Mat b K) :
    RowBlock (convNorm mb hb Wl bl Wr) (convNorm M H Wl bl Wr) r₀ := fun y p q hp => by
  rw [convNorm_ix2, convNorm_ix2,
    combAt_congr mb hb M H Wl bl Wr y p q (fun k => hm y p k hp) (fun k => hh y p k hp),
    rowLen_congr mb hb M H Wl bl Wr y p (fun k => hm y p k hp) (fun k => hh y p k hp)]

end Sage

end
-- ==== Proof.Blocks0.lean ====
/-
  From blocks to the array, region 0.  The grid has 25 points; point t reads rows 2000·t … 2000·t + 1999 of each
  node-feature array (the weights and biases whole) and writes back the same rows of the result.  Each entry of the
  stage depends on one row of the node-feature operands, so what point t writes is block t of the stage of the WHOLE
  arrays, and the 25 blocks cover the 50000 rows: the result array ends holding the stage of the arrays the region is
  entered with, whatever those are.
-/
import proofs.«103946_j64003602645175_1_alg».proof.Proof.Gen.KernelIdeal.Frame
import proofs.«103946_j64003602645175_1_alg».proof.Proof.Payload
import proofs.«103946_j64003602645175_1_alg».proof.Proof.SpecRows
import Idealize.ShloMosaic.Lib.Pipeline.Value

set_option maxRecDepth 16384

noncomputable section

namespace Cert.KernelIdeal.Hand

open Cert.KernelIdeal Cert.KernelIdeal.Gen Idealize.ShloMosaic Idealize.ShloMosaic.TcCoe Idealize.ShloMosaic.ValueIdx Idealize.SL.Sem
open Idealize.ShloMosaic.Pipeline (Dat)

theorem hz : (![0, 0] : Fin 2 → Nat) = fun _ => 0 := funext fun a => by fin_cases a <;> rfl

variable (V : (c : Dev nD) → (b : Ref sig .tc) → Buf (Elt Ideal) ((c : Thread nD τ).loc b))

/-! ## Region 0 -/

/-- The printed index maps over the grid: the row-blocked windows sit at block (t, 0), the others at block (0, 0). -/
theorem idx_facts0 : ∀ t : Fin cfg0.N,
    win0_0.index t (0 : Fin 2) = t.val ∧ win0_0.index t (1 : Fin 2) = 0
    ∧ win0_5.index t (0 : Fin 2) = t.val ∧ win0_5.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

/-- Window 0's block at point `t` is the block of rows of its array that starts at row 2000·t. -/
theorem rows0_0 (c : Dev nD) (t : Fin cfg0.N) :
    Sage.RowBlock (iblk0 V c 0 t : Vec Ideal S2000x512 .f32) (V c main_arg0 : S50000x512.Idx → EReal) (2000 * t.val) := fun y p kk hp => by
  obtain ⟨e00, e01, e50, e51, e10, e11, e20, e21, e30, e31, e40, e41⟩ := idx_facts0 t
  unfold iblk0
  rw [View.read_apply]
  show V c main_arg0 (((cfg0.win 0).blk t).view.emb (ix2 y kk)) = V c main_arg0 (ix2 p kk)
  refine congrArg (V c main_arg0) (funext fun a => Fin.ext ?_)
  match a with
  | ⟨0, _⟩ => show win0_0.index t (0 : Fin 2) * 2000 + 1 * y.val = p.val; omega
  | ⟨1, _⟩ => show win0_0.index t (1 : Fin 2) * 512 + 1 * kk.val = kk.val; omega

/-- Window 1's one block is its whole array. -/
theorem whole0_1 (c : Dev nD) (t : Fin cfg0.N) :
    (iblk0 V c 1 t : Vec Ideal S256x512 .f32) = (V c main_arg2 : S256x512.Idx → EReal) := by
  obtain ⟨e00, e01, e50, e51, e10, e11, e20, e21, e30, e31, e40, e41⟩ := idx_facts0 t
  unfold iblk0
  funext x
  rw [View.read_apply]
  show V c main_arg2 (((cfg0.win 1).blk t).view.emb x) = V c main_arg2 x
  refine congrArg (V c main_arg2) (funext fun a => Fin.ext ?_)
  match a with
  | ⟨0, _⟩ => show win0_1.index t (0 : Fin 2) * 256 + 1 * (x 0).val = (x 0).val; omega
  | ⟨1, _⟩ => show win0_1.index t (1 : Fin 2) * 512 + 1 * (x 1).val = (x 1).val; omega

/-- Window 2's one block is its whole array. -/
theorem whole0_2 (c : Dev nD) (t : Fin cfg0.N) :
    (iblk0 V c 2 t : Vec Ideal S1x256 .f32) = (V c main_v4 : S1x256.Idx → EReal) := by
  obtain ⟨e00, e01, e50, e51, e10, e11, e20, e21, e30, e31, e40, e41⟩ := idx_facts0 t
  unfold iblk0
  funext x
  rw [View.read_apply]
  show V c main_v4 (((cfg0.win 2).blk t).view.emb x) = V c main_v4 x
  refine congrArg (V c main_v4) (funext fun a => Fin.ext ?_)
  match a with
  | ⟨0, _⟩ => show win0_2.index t (0 : Fin 2) * 1 + 1 * (x 0).val = (x 0).val; omega
  | ⟨1, _⟩ => show win0_2.index t (1 : Fin 2) * 256 + 1 * (x 1).val = (x 1).val; omega

/-- Window 3's one block is its whole array. -/
theorem whole0_3 (c : Dev nD) (t : Fin cfg0.N) :
    (iblk0 V c 3 t : Vec Ideal S256x256 .f32) = (V c main_arg4 : S256x256.Idx → EReal) := by
  obtain ⟨e00, e01, e50, e51, e10, e11, e20, e21, e30, e31, e40, e41⟩ := idx_facts0 t
  unfold iblk0
  funext x
  rw [View.read_apply]
  show V c main_arg4 (((cfg0.win 3).blk t).view.emb x) = V c main_arg4 x
  refine congrArg (V c main_arg4) (funext fun a => Fin.ext ?_)
  match a with
  | ⟨0, _⟩ => show win0_3.index t (0 : Fin 2) * 256 + 1 * (x 0).val = (x 0).val; omega
  | ⟨1, _⟩ => show win0_3.index t (1 : Fin 2) * 256 + 1 * (x 1).val = (x 1).val; omega

/-- Window 4's one block is its whole array. -/
theorem whole0_4 (c : Dev nD) (t : Fin cfg0.N) :
    (iblk0 V c 4 t : Vec Ideal S1x256 .f32) = (V c main_v5 : S1x256.Idx → EReal) := by
  obtain ⟨e00, e01, e50, e51, e10, e11, e20, e21, e30, e31, e40, e41⟩ := idx_facts0 t
  unfold iblk0
  funext x
  rw [View.read_apply]
  show V c main_v5 (((cfg0.win 4).blk t).view.emb x) = V c main_v5 x
  refine congrArg (V c main_v5) (funext fun a => Fin.ext ?_)
  match a with
  | ⟨0, _⟩ => show win0_4.index t (0 : Fin 2) * 1 + 1 * (x 0).val = (x 0).val; omega
  | ⟨1, _⟩ => show win0_4.index t (1 : Fin 2) * 256 + 1 * (x 1).val = (x 1).val; omega

/-- The region's result as one function of the arrays it is entered with. -/
abbrev G0 (c : Dev nD) : S50000x256.Idx → EReal :=
  Sage.pre (V c main_arg0 : S50000x512.Idx → EReal) (V c main_arg2 : S256x512.Idx → EReal) (V c main_v4 : S1x256.Idx → EReal) (V c main_arg4 : S256x256.Idx → EReal) (V c main_v5 : S1x256.Idx → EReal)

/-- What point `t` writes back is block `t` of that function. -/
theorem flushed0 (c : Dev nD) (t : Fin cfg0.N) :
    (dat0 V c).flushed 5 t = ((cfg0.win 5).blk t).view.read (Elt Ideal) (G0 V c) := by
  show (cfg0.win 5).cut (grid0.coords t) ((dat0 V c).after 5 t) = _
  rw [after0_5]
  unfold out0_5
  rw [View.canon_unit_zero hz]
  simp only [View.ld_unit_zero (S := S2000x512) hz, View.ld_unit_zero (S := S256x512) hz, View.ld_unit_zero (S := S1x256) hz, View.ld_unit_zero (S := S256x256) hz]
  rw [pay0_eq, whole0_1 V c t, whole0_2 V c t, whole0_3 V c t, whole0_4 V c t]
  obtain ⟨e00, e01, e50, e51, e10, e11, e20, e21, e30, e31, e40, e41⟩ := idx_facts0 t
  funext j
  rw [View.read_apply]
  refine Sage.RowBlock.at (Sage.pre_rowBlock (rows0_0 V c t) _ _ _ _) j (((cfg0.win 5).blk t).view.emb j) ?_ ?_
  · show win0_5.index t (0 : Fin 2) * 2000 + 1 * (j 0).val = 2000 * t.val + (j 0).val; omega
  · show win0_5.index t (1 : Fin 2) * 256 + 1 * (j 1).val = (j 1).val; omega

/-- An index of the result array is in point `t`'s block iff each coordinate is in the block's range. -/
theorem mem_blk0 (t : Fin cfg0.N) (i : S50000x256.Idx) :
    i ∈ ((cfg0.win 5).blk t).view.set ↔ ∀ a : Fin 2, win0_5.index t a * S2000x256.size a ≤ (i a).val ∧ (i a).val < win0_5.index t a * S2000x256.size a + S2000x256.size a := by
  show i ∈ ((View.whole main_v6).slice (win0_5.rect t)).set ↔ _
  rw [View.set_slice_whole, Rect.mem_set_unit]
  exact Iff.rfl

/-- The 25 blocks of 2000 rows cover the 50000 rows: row r is in block r / 2000. -/
theorem cover0 (i : S50000x256.Idx) :
    ∃ t : Fin cfg0.N, (cfg0.win 5).flush t = true ∧ i ∈ ((cfg0.win 5).blk t).view.set := by
  have hi0 : (i 0).val < 50000 := (i 0).isLt
  have hi1 : (i 1).val < 256 := (i 1).isLt
  have hN : cfg0.N = 25 := rfl
  refine ⟨⟨(i 0).val / 2000, by rw [hN]; omega⟩, flush0_5 _, ?_⟩
  obtain ⟨e00, e01, e50, e51, e10, e11, e20, e21, e30, e31, e40, e41⟩ := idx_facts0 ⟨(i 0).val / 2000, by rw [hN]; omega⟩
  rw [mem_blk0]
  intro a
  match a with
  | ⟨0, _⟩ => show win0_5.index _ (0 : Fin 2) * 2000 ≤ (i 0).val ∧ (i 0).val < win0_5.index _ (0 : Fin 2) * 2000 + 2000; rw [e50]; show (i 0).val / 2000 * 2000 ≤ (i 0).val ∧ (i 0).val < (i 0).val / 2000 * 2000 + 2000; omega
  | ⟨1, _⟩ => show win0_5.index _ (1 : Fin 2) * 256 ≤ (i 1).val ∧ (i 1).val < win0_5.index _ (1 : Fin 2) * 256 + 256; rw [e51]; omega

/-- The result array after the region: the stage of the arrays the region is entered with. -/
theorem final0 (c : Dev nD) : (dat0 V c).arrAt 5 cfg0.N = G0 V c :=
  (dat0 V c).arrAt_eq_of_cover 5 (G0 V c) (fun t _ => flushed0 V c t) (cover0)

end Cert.KernelIdeal.Hand

end
-- ==== Proof.Blocks1.lean ====
/-
  From blocks to the array, region 1.  The grid has 25 points; point t reads rows 2000·t … 2000·t + 1999 of each
  node-feature array (the weights and biases whole) and writes back the same rows of the result.  Each entry of the
  stage depends on one row of the node-feature operands, so what point t writes is block t of the stage of the WHOLE
  arrays, and the 25 blocks cover the 50000 rows: the result array ends holding the stage of the arrays the region is
  entered with, whatever those are.
-/
import proofs.«103946_j64003602645175_1_alg».proof.Proof.Gen.KernelIdeal.Frame
import proofs.«103946_j64003602645175_1_alg».proof.Proof.Payload
import proofs.«103946_j64003602645175_1_alg».proof.Proof.SpecRows
import proofs.«103946_j64003602645175_1_alg».proof.Proof.Blocks0
import Idealize.ShloMosaic.Lib.Pipeline.Value

set_option maxRecDepth 16384

noncomputable section

namespace Cert.KernelIdeal.Hand

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-! ## Region 1 -/

/-- The printed index maps over the grid: the row-blocked windows sit at block (t, 0), the others at block (0, 0). -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_5.index t (0 : Fin 2) = t.val ∧ win1_5.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0 :=
  (by decide +kernel : ∀ t : Fin grid1.N, _)

/-- Window 0's block at point `t` is the block of rows of its array that starts at row 2000·t. -/
theorem rows1_0 (c : Dev nD) (t : Fin cfg1.N) :
    Sage.RowBlock (iblk1 V c 0 t : Vec Ideal S2000x256 .f32) (V c main_v25 : S50000x256.Idx → EReal) (2000 * t.val) := fun y p kk hp => by
  obtain ⟨e00, e01, e10, e11, e50, e51, e20, e21, e30, e31, e40, e41⟩ := idx_facts1 t
  unfold iblk1
  rw [View.read_apply]
  show V c main_v25 (((cfg1.win 0).blk t).view.emb (ix2 y kk)) = V c main_v25 (ix2 p kk)
  refine congrArg (V c main_v25) (funext fun a => Fin.ext ?_)
  match a with
  | ⟨0, _⟩ => show win1_0.index t (0 : Fin 2) * 2000 + 1 * y.val = p.val; omega
  | ⟨1, _⟩ => show win1_0.index t (1 : Fin 2) * 256 + 1 * kk.val = kk.val; omega

/-- Window 1's block at point `t` is the block of rows of its array that starts at row 2000·t. -/
theorem rows1_1 (c : Dev nD) (t : Fin cfg1.N) :
    Sage.RowBlock (iblk1 V c 1 t : Vec Ideal S2000x256 .f32) (V c main_v6 : S50000x256.Idx → EReal) (2000 * t.val) := fun y p kk hp => by
  obtain ⟨e00, e01, e10, e11, e50, e51, e20, e21, e30, e31, e40, e41⟩ := idx_facts1 t
  unfold iblk1
  rw [View.read_apply]
  show V c main_v6 (((cfg1.win 1).blk t).view.emb (ix2 y kk)) = V c main_v6 (ix2 p kk)
  refine congrArg (V c main_v6) (funext fun a => Fin.ext ?_)
  match a with
  | ⟨0, _⟩ => show win1_1.index t (0 : Fin 2) * 2000 + 1 * y.val = p.val; omega
  | ⟨1, _⟩ => show win1_1.index t (1 : Fin 2) * 256 + 1 * kk.val = kk.val; omega

/-- Window 2's one block is its whole array. -/
theorem whole1_2 (c : Dev nD) (t : Fin cfg1.N) :
    (iblk1 V c 2 t : Vec Ideal S256x256 .f32) = (V c main_arg6 : S256x256.Idx → EReal) := by
  obtain ⟨e00, e01, e10, e11, e50, e51, e20, e21, e30, e31, e40, e41⟩ := idx_facts1 t
  unfold iblk1
  funext x
  rw [View.read_apply]
  show V c main_arg6 (((cfg1.win 2).blk t).view.emb x) = V c main_arg6 x
  refine congrArg (V c main_arg6) (funext fun a => Fin.ext ?_)
  match a with
  | ⟨0, _⟩ => show win1_2.index t (0 : Fin 2) * 256 + 1 * (x 0).val = (x 0).val; omega
  | ⟨1, _⟩ => show win1_2.index t (1 : Fin 2) * 256 + 1 * (x 1).val = (x 1).val; omega

/-- Window 3's one block is its whole array. -/
theorem whole1_3 (c : Dev nD) (t : Fin cfg1.N) :
    (iblk1 V c 3 t : Vec Ideal S1x256 .f32) = (V c main_v26 : S1x256.Idx → EReal) := by
  obtain ⟨e00, e01, e10, e11, e50, e51, e20, e21, e30, e31, e40, e41⟩ := idx_facts1 t
  unfold iblk1
  funext x
  rw [View.read_apply]
  show V c main_v26 (((cfg1.win 3).blk t).view.emb x) = V c main_v26 x
  refine congrArg (V c main_v26) (funext fun a => Fin.ext ?_)
  match a with
  | ⟨0, _⟩ => show win1_3.index t (0 : Fin 2) * 1 + 1 * (x 0).val = (x 0).val; omega
  | ⟨1, _⟩ => show win1_3.index t (1 : Fin 2) * 256 + 1 * (x 1).val = (x 1).val; omega

/-- Window 4's one block is its whole array. -/
theorem whole1_4 (c : Dev nD) (t : Fin cfg1.N) :
    (iblk1 V c 4 t : Vec Ideal S256x256 .f32) = (V c main_arg8 : S256x256.Idx → EReal) := by
  obtain ⟨e00, e01, e10, e11, e50, e51, e20, e21, e30, e31, e40, e41⟩ := idx_facts1 t
  unfold iblk1
  funext x
  rw [View.read_apply]
  show V c main_arg8 (((cfg1.win 4).blk t).view.emb x) = V c main_arg8 x
  refine congrArg (V c main_arg8) (funext fun a => Fin.ext ?_)
  match a with
  | ⟨0, _⟩ => show win1_4.index t (0 : Fin 2) * 256 + 1 * (x 0).val = (x 0).val; omega
  | ⟨1, _⟩ => show win1_4.index t (1 : Fin 2) * 256 + 1 * (x 1).val = (x 1).val; omega

/-- The region's result as one function of the arrays it is entered with. -/
abbrev G1 (c : Dev nD) : S50000x256.Idx → EReal :=
  Sage.convRelu (V c main_v25 : S50000x256.Idx → EReal) (V c main_v6 : S50000x256.Idx → EReal) (V c main_arg6 : S256x256.Idx → EReal) (V c main_v26 : S1x256.Idx → EReal) (V c main_arg8 : S256x256.Idx → EReal)

/-- What point `t` writes back is block `t` of that function. -/
theorem flushed1 (c : Dev nD) (t : Fin cfg1.N) :
    (dat1 V c).flushed 5 t = ((cfg1.win 5).blk t).view.read (Elt Ideal) (G1 V c) := by
  show (cfg1.win 5).cut (grid1.coords t) ((dat1 V c).after 5 t) = _
  rw [after1_5]
  unfold out1_5
  rw [View.canon_unit_zero hz]
  simp only [View.ld_unit_zero (S := S2000x256) hz, View.ld_unit_zero (S := S256x256) hz, View.ld_unit_zero (S := S1x256) hz]
  rw [pay1_eq, whole1_2 V c t, whole1_3 V c t, whole1_4 V c t]
  obtain ⟨e00, e01, e10, e11, e50, e51, e20, e21, e30, e31, e40, e41⟩ := idx_facts1 t
  funext j
  rw [View.read_apply]
  refine Sage.RowBlock.at (Sage.convRelu_rowBlock (rows1_0 V c t) (rows1_1 V c t) _ _ _) j (((cfg1.win 5).blk t).view.emb j) ?_ ?_
  · show win1_5.index t (0 : Fin 2) * 2000 + 1 * (j 0).val = 2000 * t.val + (j 0).val; omega
  · show win1_5.index t (1 : Fin 2) * 256 + 1 * (j 1).val = (j 1).val; omega

/-- An index of the result array is in point `t`'s block iff each coordinate is in the block's range. -/
theorem mem_blk1 (t : Fin cfg1.N) (i : S50000x256.Idx) :
    i ∈ ((cfg1.win 5).blk t).view.set ↔ ∀ a : Fin 2, win1_5.index t a * S2000x256.size a ≤ (i a).val ∧ (i a).val < win1_5.index t a * S2000x256.size a + S2000x256.size a := by
  show i ∈ ((View.whole main_v27).slice (win1_5.rect t)).set ↔ _
  rw [View.set_slice_whole, Rect.mem_set_unit]
  exact Iff.rfl

/-- The 25 blocks of 2000 rows cover the 50000 rows: row r is in block r / 2000. -/
theorem cover1 (i : S50000x256.Idx) :
    ∃ t : Fin cfg1.N, (cfg1.win 5).flush t = true ∧ i ∈ ((cfg1.win 5).blk t).view.set := by
  have hi0 : (i 0).val < 50000 := (i 0).isLt
  have hi1 : (i 1).val < 256 := (i 1).isLt
  have hN : cfg1.N = 25 := rfl
  refine ⟨⟨(i 0).val / 2000, by rw [hN]; omega⟩, flush1_5 _, ?_⟩
  obtain ⟨e00, e01, e10, e11, e50, e51, e20, e21, e30, e31, e40, e41⟩ := idx_facts1 ⟨(i 0).val / 2000, by rw [hN]; omega⟩
  rw [mem_blk1]
  intro a
  match a with
  | ⟨0, _⟩ => show win1_5.index _ (0 : Fin 2) * 2000 ≤ (i 0).val ∧ (i 0).val < win1_5.index _ (0 : Fin 2) * 2000 + 2000; rw [e50]; show (i 0).val / 2000 * 2000 ≤ (i 0).val ∧ (i 0).val < (i 0).val / 2000 * 2000 + 2000; omega
  | ⟨1, _⟩ => show win1_5.index _ (1 : Fin 2) * 256 ≤ (i 1).val ∧ (i 1).val < win1_5.index _ (1 : Fin 2) * 256 + 256; rw [e51]; omega

/-- The result array after the region: the stage of the arrays the region is entered with. -/
theorem final1 (c : Dev nD) : (dat1 V c).arrAt 5 cfg1.N = G1 V c :=
  (dat1 V c).arrAt_eq_of_cover 5 (G1 V c) (fun t _ => flushed1 V c t) (cover1)

end Cert.KernelIdeal.Hand

end
-- ==== Proof.Blocks2.lean ====
/-
  From blocks to the array, region 2.  The grid has 25 points; point t reads rows 2000·t … 2000·t + 1999 of each
  node-feature array (the weights and biases whole) and writes back the same rows of the result.  Each entry of the
  stage depends on one row of the node-feature operands, so what point t writes is block t of the stage of the WHOLE
  arrays, and the 25 blocks cover the 50000 rows: the result array ends holding the stage of the arrays the region is
  entered with, whatever those are.
-/
import proofs.«103946_j64003602645175_1_alg».proof.Proof.Gen.KernelIdeal.Frame
import proofs.«103946_j64003602645175_1_alg».proof.Proof.Payload
import proofs.«103946_j64003602645175_1_alg».proof.Proof.SpecRows
import proofs.«103946_j64003602645175_1_alg».proof.Proof.Blocks0
import Idealize.ShloMosaic.Lib.Pipeline.Value

set_option maxRecDepth 16384

noncomputable section

namespace Cert.KernelIdeal.Hand

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-! ## Region 2 -/

/-- The printed index maps over the grid: the row-blocked windows sit at block (t, 0), the others at block (0, 0). -/
theorem idx_facts2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_5.index t (0 : Fin 2) = t.val ∧ win2_5.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0 :=
  (by decide +kernel : ∀ t : Fin grid2.N, _)

/-- Window 0's block at point `t` is the block of rows of its array that starts at row 2000·t. -/
theorem rows2_0 (c : Dev nD) (t : Fin cfg2.N) :
    Sage.RowBlock (iblk2 V c 0 t : Vec Ideal S2000x256 .f32) (V c main_v46 : S50000x256.Idx → EReal) (2000 * t.val) := fun y p kk hp => by
  obtain ⟨e00, e01, e10, e11, e50, e51, e20, e21, e30, e31, e40, e41⟩ := idx_facts2 t
  unfold iblk2
  rw [View.read_apply]
  show V c main_v46 (((cfg2.win 0).blk t).view.emb (ix2 y kk)) = V c main_v46 (ix2 p kk)
  refine congrArg (V c main_v46) (funext fun a => Fin.ext ?_)
  match a with
  | ⟨0, _⟩ => show win2_0.index t (0 : Fin 2) * 2000 + 1 * y.val = p.val; omega
  | ⟨1, _⟩ => show win2_0.index t (1 : Fin 2) * 256 + 1 * kk.val = kk.val; omega

/-- Window 1's block at point `t` is the block of rows of its array that starts at row 2000·t. -/
theorem rows2_1 (c : Dev nD) (t : Fin cfg2.N) :
    Sage.RowBlock (iblk2 V c 1 t : Vec Ideal S2000x256 .f32) (V c main_v27 : S50000x256.Idx → EReal) (2000 * t.val) := fun y p kk hp => by
  obtain ⟨e00, e01, e10, e11, e50, e51, e20, e21, e30, e31, e40, e41⟩ := idx_facts2 t
  unfold iblk2
  rw [View.read_apply]
  show V c main_v27 (((cfg2.win 1).blk t).view.emb (ix2 y kk)) = V c main_v27 (ix2 p kk)
  refine congrArg (V c main_v27) (funext fun a => Fin.ext ?_)
  match a with
  | ⟨0, _⟩ => show win2_1.index t (0 : Fin 2) * 2000 + 1 * y.val = p.val; omega
  | ⟨1, _⟩ => show win2_1.index t (1 : Fin 2) * 256 + 1 * kk.val = kk.val; omega

/-- Window 2's one block is its whole array. -/
theorem whole2_2 (c : Dev nD) (t : Fin cfg2.N) :
    (iblk2 V c 2 t : Vec Ideal S128x256 .f32) = (V c main_arg9 : S128x256.Idx → EReal) := by
  obtain ⟨e00, e01, e10, e11, e50, e51, e20, e21, e30, e31, e40, e41⟩ := idx_facts2 t
  unfold iblk2
  funext x
  rw [View.read_apply]
  show V c main_arg9 (((cfg2.win 2).blk t).view.emb x) = V c main_arg9 x
  refine congrArg (V c main_arg9) (funext fun a => Fin.ext ?_)
  match a with
  | ⟨0, _⟩ => show win2_2.index t (0 : Fin 2) * 128 + 1 * (x 0).val = (x 0).val; omega
  | ⟨1, _⟩ => show win2_2.index t (1 : Fin 2) * 256 + 1 * (x 1).val = (x 1).val; omega

/-- Window 3's one block is its whole array. -/
theorem whole2_3 (c : Dev nD) (t : Fin cfg2.N) :
    (iblk2 V c 3 t : Vec Ideal S1x128 .f32) = (V c main_v47 : S1x128.Idx → EReal) := by
  obtain ⟨e00, e01, e10, e11, e50, e51, e20, e21, e30, e31, e40, e41⟩ := idx_facts2 t
  unfold iblk2
  funext x
  rw [View.read_apply]
  show V c main_v47 (((cfg2.win 3).blk t).view.emb x) = V c main_v47 x
  refine congrArg (V c main_v47) (funext fun a => Fin.ext ?_)
  match a with
  | ⟨0, _⟩ => show win2_3.index t (0 : Fin 2) * 1 + 1 * (x 0).val = (x 0).val; omega
  | ⟨1, _⟩ => show win2_3.index t (1 : Fin 2) * 128 + 1 * (x 1).val = (x 1).val; omega

/-- Window 4's one block is its whole array. -/
theorem whole2_4 (c : Dev nD) (t : Fin cfg2.N) :
    (iblk2 V c 4 t : Vec Ideal S128x256 .f32) = (V c main_arg11 : S128x256.Idx → EReal) := by
  obtain ⟨e00, e01, e10, e11, e50, e51, e20, e21, e30, e31, e40, e41⟩ := idx_facts2 t
  unfold iblk2
  funext x
  rw [View.read_apply]
  show V c main_arg11 (((cfg2.win 4).blk t).view.emb x) = V c main_arg11 x
  refine congrArg (V c main_arg11) (funext fun a => Fin.ext ?_)
  match a with
  | ⟨0, _⟩ => show win2_4.index t (0 : Fin 2) * 128 + 1 * (x 0).val = (x 0).val; omega
  | ⟨1, _⟩ => show win2_4.index t (1 : Fin 2) * 256 + 1 * (x 1).val = (x 1).val; omega

/-- The region's result as one function of the arrays it is entered with. -/
abbrev G2 (c : Dev nD) : S50000x128.Idx → EReal :=
  Sage.convNorm (V c main_v46 : S50000x256.Idx → EReal) (V c main_v27 : S50000x256.Idx → EReal) (V c main_arg9 : S128x256.Idx → EReal) (V c main_v47 : S1x128.Idx → EReal) (V c main_arg11 : S128x256.Idx → EReal)

/-- What point `t` writes back is block `t` of that function. -/
theorem flushed2 (c : Dev nD) (t : Fin cfg2.N) :
    (dat2 V c).flushed 5 t = ((cfg2.win 5).blk t).view.read (Elt Ideal) (G2 V c) := by
  show (cfg2.win 5).cut (grid2.coords t) ((dat2 V c).after 5 t) = _
  rw [after2_5]
  unfold out2_5
  rw [View.canon_unit_zero hz]
  simp only [View.ld_unit_zero (S := S2000x256) hz, View.ld_unit_zero (S := S128x256) hz, View.ld_unit_zero (S := S1x128) hz, View.ld_unit_zero (S := S2000x128) hz]
  rw [pay2_eq, whole2_2 V c t, whole2_3 V c t, whole2_4 V c t]
  obtain ⟨e00, e01, e10, e11, e50, e51, e20, e21, e30, e31, e40, e41⟩ := idx_facts2 t
  funext j
  rw [View.read_apply]
  refine Sage.RowBlock.at (Sage.convNorm_rowBlock (rows2_0 V c t) (rows2_1 V c t) _ _ _) j (((cfg2.win 5).blk t).view.emb j) ?_ ?_
  · show win2_5.index t (0 : Fin 2) * 2000 + 1 * (j 0).val = 2000 * t.val + (j 0).val; omega
  · show win2_5.index t (1 : Fin 2) * 128 + 1 * (j 1).val = (j 1).val; omega

/-- An index of the result array is in point `t`'s block iff each coordinate is in the block's range. -/
theorem mem_blk2 (t : Fin cfg2.N) (i : S50000x128.Idx) :
    i ∈ ((cfg2.win 5).blk t).view.set ↔ ∀ a : Fin 2, win2_5.index t a * S2000x128.size a ≤ (i a).val ∧ (i a).val < win2_5.index t a * S2000x128.size a + S2000x128.size a := by
  show i ∈ ((View.whole main_v48).slice (win2_5.rect t)).set ↔ _
  rw [View.set_slice_whole, Rect.mem_set_unit]
  exact Iff.rfl

/-- The 25 blocks of 2000 rows cover the 50000 rows: row r is in block r / 2000. -/
theorem cover2 (i : S50000x128.Idx) :
    ∃ t : Fin cfg2.N, (cfg2.win 5).flush t = true ∧ i ∈ ((cfg2.win 5).blk t).view.set := by
  have hi0 : (i 0).val < 50000 := (i 0).isLt
  have hi1 : (i 1).val < 128 := (i 1).isLt
  have hN : cfg2.N = 25 := rfl
  refine ⟨⟨(i 0).val / 2000, by rw [hN]; omega⟩, flush2_5 _, ?_⟩
  obtain ⟨e00, e01, e10, e11, e50, e51, e20, e21, e30, e31, e40, e41⟩ := idx_facts2 ⟨(i 0).val / 2000, by rw [hN]; omega⟩
  rw [mem_blk2]
  intro a
  match a with
  | ⟨0, _⟩ => show win2_5.index _ (0 : Fin 2) * 2000 ≤ (i 0).val ∧ (i 0).val < win2_5.index _ (0 : Fin 2) * 2000 + 2000; rw [e50]; show (i 0).val / 2000 * 2000 ≤ (i 0).val ∧ (i 0).val < (i 0).val / 2000 * 2000 + 2000; omega
  | ⟨1, _⟩ => show win2_5.index _ (1 : Fin 2) * 128 ≤ (i 1).val ∧ (i 1).val < win2_5.index _ (1 : Fin 2) * 128 + 128; rw [e51]; omega

/-- The result array after the region: the stage of the arrays the region is entered with. -/
theorem final2 (c : Dev nD) : (dat2 V c).arrAt 5 cfg2.N = G2 V c :=
  (dat2 V c).arrAt_eq_of_cover 5 (G2 V c) (fun t _ => flushed2 V c t) (cover2)

end Cert.KernelIdeal.Hand

end
-- ==== Proof.LibStretch.lean ====
/-
  Reading a program's host operations stretch by stretch.  The buffer contents after a list of host operations is a fold
  of the operations over the contents the list is entered with; over two stretches run one after the other it is the
  second stretch's fold over the first's (`after_append`).  So a long host program is read one short stretch at a time,
  each stretch over ANY contents V: which buffers it leaves as they were (`unwritten`), and what it writes into the
  buffers a later stretch reads, as the operations' term of what it finds (`read_stretch`).  Short stretches matter where
  operations carry casts between a buffer's recorded type and its literal type (the operations of an outlined function):
  many of them nested under one comparison are costly, two or three are not.
-/
import Idealize.ShloMosaic.Lib.StableHlo.Run

namespace Cert.Stretch

open Idealize.ShloMosaic Idealize.ShloMosaic.StableHlo

/-- The contents after two stretches run one after the other: the second stretch's fold over the first's. -/
theorem after_append {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => exact ih (op.result V)

end Cert.Stretch

/-- `unwritten ops` closes `after ops V b = V b` for a literal stretch `ops` (named by an identifier that unfolds to the
    list) and a literal buffer `b` none of its operations writes: each operation's written buffer is another reference. -/
macro "unwritten" ops:ident : tactic =>
  `(tactic| exact Idealize.ShloMosaic.StableHlo.after_of_forall_not_mem _ _ (List.forall_iff_forall_mem.mp (by
      simp only [$ops:ident, List.Forall, Idealize.ShloMosaic.StableHlo.nullary_writes, Idealize.ShloMosaic.StableHlo.unary_writes, Idealize.ShloMosaic.StableHlo.binary_writes, Idealize.ShloMosaic.StableHlo.ternary_writes, Idealize.ShloMosaic.StableHlo.quaternary_writes, Idealize.ShloMosaic.StableHlo.reshape_writes, Idealize.ShloMosaic.StableHlo.binaryIndexed_writes, Finset.mem_singleton]
      repeat' apply And.intro
      all_goals exact Idealize.ShloMosaic.StableHlo.devRef_ne_of_ne (by decide))))

/-- `read_stretch` closes `after ops V b = t` for a literal stretch and a buffer it writes, `t` the operations' term over
    `V` at the buffers the stretch reads: every operation's result at its own buffer is its function's value, at any other
    buffer what was there (one pass over the stretch); what is left is the same term on both sides. -/
macro "read_stretch" : tactic =>
  `(tactic| ((open Idealize.ShloMosaic.StableHlo in after_results_simp) <;> rfl))

/-- The same, one rewrite per operation: for a stretch of a few operations. -/
macro "read_stretch_small" : tactic =>
  `(tactic| ((open Idealize.ShloMosaic.StableHlo in after_results) <;> rfl))
-- ==== Proof.Stretch.lean ====
/-
  The host operations between the kernel's regions, read.

  Before the first region the edge list's two rows are cut out (the sources and the targets of the edges) and two
  biases are recast as one-row arrays.  Between the regions the same 25 operations run twice: the neighbourhood average
  `agg h src dst` — the rows of `h` gathered at the sources (a negative source counted from the end), summed into the
  targets' rows, each row divided by the number of edges that arrive at it (at least one) — of what the region before
  left, and one more bias recast.  Each stretch is read over ANY contents it is entered with.
-/
import proofs.«103946_j64003602645175_1_alg».proof.Proof.Gen.KernelIdeal.Launch
import proofs.«103946_j64003602645175_1_alg».proof.Proof.LibStretch
import Idealize.ShloMosaic.Lib.StableHlo.Run
import Idealize.ShloMosaic.PureOps.Ideal

set_option maxRecDepth 16384

noncomputable section

namespace Cert.KernelIdeal.Hand

open Cert.KernelIdeal Cert.KernelIdeal.Gen Idealize.ShloMosaic Idealize.ShloMosaic.TcCoe Idealize.ShloMosaic.StableHlo

/-- The edges' sources: row 0 of the edge list. -/
def srcOf (e : (⟨S2x800000, .i32⟩ : BufTy).Contents (Elt Ideal)) : (⟨S800000, .i32⟩ : BufTy).Contents (Elt Ideal) :=
  shapeCast S800000 (extractStridedSlice S1x800000 ![0, 0] e slices_S2x800000_S1x800000_0_0) shapeCasts_S1x800000_S800000

/-- The edges' targets: row 1 of the edge list. -/
def dstOf (e : (⟨S2x800000, .i32⟩ : BufTy).Contents (Elt Ideal)) : (⟨S800000, .i32⟩ : BufTy).Contents (Elt Ideal) :=
  shapeCast S800000 (extractStridedSlice S1x800000 ![1, 0] e slices_S2x800000_S1x800000_1_0) shapeCasts_S1x800000_S800000

/-- The neighbourhood average, as the host operations spell it. -/
def agg (h : (⟨S50000x256, .f32⟩ : BufTy).Contents (Elt Ideal)) (src dst : (⟨S800000, .i32⟩ : BufTy).Contents (Elt Ideal)) :
    (⟨S50000x256, .f32⟩ : BufTy).Contents (Elt Ideal) :=
  Host.divf (F := Ideal)
    (Host.scatterAdd (F := Ideal) scatter_S50000x256_S800000x1_S800000x256_1_0_0_1
      (broadcastInDim S50000x256 ![] bcast_S_S50000x256 (constant (F := Ideal) S_ .f32 0x00000000#32))
      (broadcastInDim S800000x1 ![0] bcast_S800000_S800000x1_0 dst)
      (Host.gather gather_S50000x256_S800000x1_S800000x256_1_0_n_n_0_1_1256 h
        (broadcastInDim S800000x1 ![0] bcast_S800000_S800000x1_0
          (select (cmpi .slt src (broadcastInDim S800000 ![] bcast_S_S800000 (constantI S_ 32 0#32)))
            (addi src (broadcastInDim S800000 ![] bcast_S_S800000 (constantI S_ 32 50000#32))) src))))
    (broadcastInDim S50000x256 ![0, 1] bcast_S50000x1_S50000x256_0_1
      (broadcastInDim S50000x1 ![0] bcast_S50000_S50000x1_0
        (maximumf (F := Ideal)
          (Host.scatterAdd (F := Ideal) scatter_S50000_S800000x1_S800000_n_0_0_1
            (broadcastInDim S50000 ![] bcast_S_S50000 (constant (F := Ideal) S_ .f32 0x00000000#32))
            (broadcastInDim S800000x1 ![0] bcast_S800000_S800000x1_0 dst)
            (broadcastInDim S800000 ![] bcast_S_S800000 (constant (F := Ideal) S_ .f32 0x3F800000#32)))
          (broadcastInDim S50000 ![] bcast_S_S50000 (constant (F := Ideal) S_ .f32 0x3F800000#32)))))

variable (U : Valuation τ sig (Elt Ideal))

/-! ### The stretch before the first region -/

theorem s0_v1 : after hostOps0 U (Proc.devRef .tc main_v1) = srcOf (U (Proc.devRef .tc main_arg1)) := by
  dsimp only [hostOps0]; after_results; rfl
theorem s0_v3 : after hostOps0 U (Proc.devRef .tc main_v3) = dstOf (U (Proc.devRef .tc main_arg1)) := by
  dsimp only [hostOps0]; after_results; rfl
theorem s0_v4 : after hostOps0 U (Proc.devRef .tc main_v4) = shapeCast S1x256 (U (Proc.devRef .tc main_arg3)) shapeCasts_S256_S1x256 := by
  dsimp only [hostOps0]; after_results; rfl
theorem s0_v5 : after hostOps0 U (Proc.devRef .tc main_v5) = shapeCast S1x256 (U (Proc.devRef .tc main_arg5)) shapeCasts_S256_S1x256 := by
  dsimp only [hostOps0]; after_results; rfl

/-! ### The stretch between the first and the second region -/

theorem s1_v25 : after hostOps1 U (Proc.devRef .tc main_v25)
    = agg (U (Proc.devRef .tc main_v6)) (U (Proc.devRef .tc main_v1)) (U (Proc.devRef .tc main_v3)) := by
  dsimp only [hostOps1]; after_results_simp; rfl
theorem s1_v26 : after hostOps1 U (Proc.devRef .tc main_v26) = shapeCast S1x256 (U (Proc.devRef .tc main_arg7)) shapeCasts_S256_S1x256 := by
  dsimp only [hostOps1]; after_results_simp; rfl

/-! ### The stretch between the second and the third region -/

theorem s2_v46 : after hostOps2 U (Proc.devRef .tc main_v46)
    = agg (U (Proc.devRef .tc main_v27)) (U (Proc.devRef .tc main_v1)) (U (Proc.devRef .tc main_v3)) := by
  dsimp only [hostOps2]; after_results_simp; rfl
theorem s2_v47 : after hostOps2 U (Proc.devRef .tc main_v47) = shapeCast S1x128 (U (Proc.devRef .tc main_arg10)) shapeCasts_S128_S1x128 := by
  dsimp only [hostOps2]; after_results_simp; rfl

end Cert.KernelIdeal.Hand

end
-- ==== Proof.Whole.lean ====
/-
  The whole forward pass as one function of the twelve argument arrays: the hidden features `hid0` (two affine maps of
  the node features), `hid1` (the first convolution: the positive part of the combination of `hid0`'s neighbourhood
  average with `hid0`), and the result `fwd` (the second convolution of `hid1`, every row divided by its length).
  Each one-dimensional bias enters as a one-row array.
-/
import proofs.«103946_j64003602645175_1_alg».proof.Proof.Stretch
import proofs.«103946_j64003602645175_1_alg».proof.Proof.Spec
import Idealize.ShloMosaic.Lib.ValueLayout

noncomputable section

namespace Cert.KernelIdeal.Hand

open Cert.KernelIdeal Cert.KernelIdeal.Gen Idealize.ShloMosaic Idealize.ShloMosaic.ValueIdx

/-- A bias recast as a one-row array is the bias read along the row. -/
theorem cast256_eq (v : (⟨S256, .f32⟩ : BufTy).Contents (Elt Ideal)) :
    (shapeCast S1x256 v shapeCasts_S256_S1x256 : S1x256.Idx → EReal) = Sage.row1 (v : S256.Idx → EReal) := by
  funext i
  obtain ⟨u, q, rfl⟩ : ∃ (u : Fin 1) (q : Fin 256), i = ix2 u q := ⟨i 0, i 1, eq_ix2 i⟩
  exact shapeCast_a_1a_apply _ _ u q

theorem cast128_eq (v : (⟨S128, .f32⟩ : BufTy).Contents (Elt Ideal)) :
    (shapeCast S1x128 v shapeCasts_S128_S1x128 : S1x128.Idx → EReal) = Sage.row1 (v : S128.Idx → EReal) := by
  funext i
  obtain ⟨u, q, rfl⟩ : ∃ (u : Fin 1) (q : Fin 128), i = ix2 u q := ⟨i 0, i 1, eq_ix2 i⟩
  exact shapeCast_a_1a_apply _ _ u q

variable (x : (⟨S50000x512, .f32⟩ : BufTy).Contents (Elt Ideal)) (e : (⟨S2x800000, .i32⟩ : BufTy).Contents (Elt Ideal))
  (Wpre : (⟨S256x512, .f32⟩ : BufTy).Contents (Elt Ideal)) (bpre : (⟨S256, .f32⟩ : BufTy).Contents (Elt Ideal))
  (Wpre2 : (⟨S256x256, .f32⟩ : BufTy).Contents (Elt Ideal)) (bpre2 : (⟨S256, .f32⟩ : BufTy).Contents (Elt Ideal))
  (Wl1 : (⟨S256x256, .f32⟩ : BufTy).Contents (Elt Ideal)) (bl1 : (⟨S256, .f32⟩ : BufTy).Contents (Elt Ideal))
  (Wr1 : (⟨S256x256, .f32⟩ : BufTy).Contents (Elt Ideal))
  (Wl2 : (⟨S128x256, .f32⟩ : BufTy).Contents (Elt Ideal)) (bl2 : (⟨S128, .f32⟩ : BufTy).Contents (Elt Ideal))
  (Wr2 : (⟨S128x256, .f32⟩ : BufTy).Contents (Elt Ideal))

/-- The hidden features after the two affine maps. -/
def hid0 : (⟨S50000x256, .f32⟩ : BufTy).Contents (Elt Ideal) :=
  Sage.pre (x : S50000x512.Idx → EReal) (Wpre : S256x512.Idx → EReal) (Sage.row1 (bpre : S256.Idx → EReal))
    (Wpre2 : S256x256.Idx → EReal) (Sage.row1 (bpre2 : S256.Idx → EReal))

/-- The hidden features after the first convolution. -/
def hid1 : (⟨S50000x256, .f32⟩ : BufTy).Contents (Elt Ideal) :=
  Sage.convRelu (agg (hid0 x Wpre bpre Wpre2 bpre2) (srcOf e) (dstOf e) : S50000x256.Idx → EReal)
    (hid0 x Wpre bpre Wpre2 bpre2 : S50000x256.Idx → EReal)
    (Wl1 : S256x256.Idx → EReal) (Sage.row1 (bl1 : S256.Idx → EReal)) (Wr1 : S256x256.Idx → EReal)

/-- The result: the second convolution, every row divided by its length. -/
def fwd : (⟨S50000x128, .f32⟩ : BufTy).Contents (Elt Ideal) :=
  Sage.convNorm (agg (hid1 x e Wpre bpre Wpre2 bpre2 Wl1 bl1 Wr1) (srcOf e) (dstOf e) : S50000x256.Idx → EReal)
    (hid1 x e Wpre bpre Wpre2 bpre2 Wl1 bl1 Wr1 : S50000x256.Idx → EReal)
    (Wl2 : S128x256.Idx → EReal) (Sage.row1 (bl2 : S128.Idx → EReal)) (Wr2 : S128x256.Idx → EReal)

end Cert.KernelIdeal.Hand

end
-- ==== Proof.Chain.lean ====
/-
  The contents of the kernel's buffers at each boundary of its run, walked forward from the launch memory.

  The run alternates stretches of host operations with the three regions.  A stretch leaves a buffer it does not write as
  it was and writes the others as its operations' term of what it finds; a region leaves every buffer that is not one of its
  arrays as it was, and its result array at the stage of the arrays it is entered with.  Walking forward: the edges' sources
  and targets and the recast biases after the first stretch; the hidden features after the first region; their
  neighbourhood average after the second stretch; the first convolution after the second region; its average after the
  third stretch; the result after the third region.  So the result buffer ends holding `fwd` of the twelve argument arrays.
-/
import proofs.«103946_j64003602645175_1_alg».proof.Proof.Blocks0
import proofs.«103946_j64003602645175_1_alg».proof.Proof.Blocks1
import proofs.«103946_j64003602645175_1_alg».proof.Proof.Blocks2
import proofs.«103946_j64003602645175_1_alg».proof.Proof.Whole

set_option maxRecDepth 16384

noncomputable section

namespace Cert.KernelIdeal.Hand

open Cert.KernelIdeal Cert.KernelIdeal.Gen Idealize.ShloMosaic Idealize.ShloMosaic.TcCoe Idealize.ShloMosaic.ValueIdx Idealize.SL.Sem
open Idealize.ShloMosaic.StableHlo

variable (m : (ℓ : Loc nD τ sig) → Buf (Elt Ideal) ℓ) (ρ : Dev nD → PrngReg) (c : Dev nD)

/-- The hidden features, the first convolution and the result of the launch memory's arguments. -/
abbrev H0 : (⟨S50000x256, .f32⟩ : BufTy).Contents (Elt Ideal) := hid0 (m ((c : Thread nD τ).loc main_arg0)) (m ((c : Thread nD τ).loc main_arg2)) (m ((c : Thread nD τ).loc main_arg3)) (m ((c : Thread nD τ).loc main_arg4)) (m ((c : Thread nD τ).loc main_arg5))
abbrev H1 : (⟨S50000x256, .f32⟩ : BufTy).Contents (Elt Ideal) := hid1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
abbrev SRC : (⟨S800000, .i32⟩ : BufTy).Contents (Elt Ideal) := srcOf (m ((c : Thread nD τ).loc main_arg1))
abbrev DST : (⟨S800000, .i32⟩ : BufTy).Contents (Elt Ideal) := dstOf (m ((c : Thread nD τ).loc main_arg1))

/-! ### After the first stretch -/
theorem w1_arg0 : W1 m ρ c (Proc.devRef .tc main_arg0) = m ((c : Thread nD τ).loc main_arg0) := by
  show after hostOps0 (W0 m ρ c) (Proc.devRef .tc main_arg0) = W0 m ρ c (Proc.devRef .tc main_arg0)
  unwritten hostOps0
theorem w1_arg2 : W1 m ρ c (Proc.devRef .tc main_arg2) = m ((c : Thread nD τ).loc main_arg2) := by
  show after hostOps0 (W0 m ρ c) (Proc.devRef .tc main_arg2) = W0 m ρ c (Proc.devRef .tc main_arg2)
  unwritten hostOps0
theorem w1_arg4 : W1 m ρ c (Proc.devRef .tc main_arg4) = m ((c : Thread nD τ).loc main_arg4) := by
  show after hostOps0 (W0 m ρ c) (Proc.devRef .tc main_arg4) = W0 m ρ c (Proc.devRef .tc main_arg4)
  unwritten hostOps0
theorem w1_arg6 : W1 m ρ c (Proc.devRef .tc main_arg6) = m ((c : Thread nD τ).loc main_arg6) := by
  show after hostOps0 (W0 m ρ c) (Proc.devRef .tc main_arg6) = W0 m ρ c (Proc.devRef .tc main_arg6)
  unwritten hostOps0
theorem w1_arg7 : W1 m ρ c (Proc.devRef .tc main_arg7) = m ((c : Thread nD τ).loc main_arg7) := by
  show after hostOps0 (W0 m ρ c) (Proc.devRef .tc main_arg7) = W0 m ρ c (Proc.devRef .tc main_arg7)
  unwritten hostOps0
theorem w1_arg8 : W1 m ρ c (Proc.devRef .tc main_arg8) = m ((c : Thread nD τ).loc main_arg8) := by
  show after hostOps0 (W0 m ρ c) (Proc.devRef .tc main_arg8) = W0 m ρ c (Proc.devRef .tc main_arg8)
  unwritten hostOps0
theorem w1_arg9 : W1 m ρ c (Proc.devRef .tc main_arg9) = m ((c : Thread nD τ).loc main_arg9) := by
  show after hostOps0 (W0 m ρ c) (Proc.devRef .tc main_arg9) = W0 m ρ c (Proc.devRef .tc main_arg9)
  unwritten hostOps0
theorem w1_arg10 : W1 m ρ c (Proc.devRef .tc main_arg10) = m ((c : Thread nD τ).loc main_arg10) := by
  show after hostOps0 (W0 m ρ c) (Proc.devRef .tc main_arg10) = W0 m ρ c (Proc.devRef .tc main_arg10)
  unwritten hostOps0
theorem w1_arg11 : W1 m ρ c (Proc.devRef .tc main_arg11) = m ((c : Thread nD τ).loc main_arg11) := by
  show after hostOps0 (W0 m ρ c) (Proc.devRef .tc main_arg11) = W0 m ρ c (Proc.devRef .tc main_arg11)
  unwritten hostOps0
theorem w1_v1 : W1 m ρ c (Proc.devRef .tc main_v1) = SRC m c := s0_v1 (W0 m ρ c)
theorem w1_v3 : W1 m ρ c (Proc.devRef .tc main_v3) = DST m c := s0_v3 (W0 m ρ c)
theorem w1_v4 : W1 m ρ c (Proc.devRef .tc main_v4) = shapeCast S1x256 (m ((c : Thread nD τ).loc main_arg3)) shapeCasts_S256_S1x256 := s0_v4 (W0 m ρ c)
theorem w1_v5 : W1 m ρ c (Proc.devRef .tc main_v5) = shapeCast S1x256 (m ((c : Thread nD τ).loc main_arg5)) shapeCasts_S256_S1x256 := s0_v5 (W0 m ρ c)

/-! ### After the first region -/

theorem w2_v6 : W2 m ρ c (Proc.devRef .tc main_v6) = H0 m c := by
  refine (W2_arr m ρ c 5).trans ((final0 (V1 m ρ) c).trans ?_)
  show Sage.pre (W1 m ρ c (Proc.devRef .tc main_arg0) : S50000x512.Idx → EReal) (W1 m ρ c (Proc.devRef .tc main_arg2) : S256x512.Idx → EReal) (W1 m ρ c (Proc.devRef .tc main_v4) : S1x256.Idx → EReal) (W1 m ρ c (Proc.devRef .tc main_arg4) : S256x256.Idx → EReal) (W1 m ρ c (Proc.devRef .tc main_v5) : S1x256.Idx → EReal) = _
  rw [w1_arg0, w1_arg2, w1_arg4, w1_v4, w1_v5, cast256_eq, cast256_eq]
  rfl
theorem w2_v1 : W2 m ρ c (Proc.devRef .tc main_v1) = SRC m c := (W2_of_ne m ρ c main_v1 (by decide)).trans (w1_v1 m ρ c)
theorem w2_v3 : W2 m ρ c (Proc.devRef .tc main_v3) = DST m c := (W2_of_ne m ρ c main_v3 (by decide)).trans (w1_v3 m ρ c)
theorem w2_arg6 : W2 m ρ c (Proc.devRef .tc main_arg6) = m ((c : Thread nD τ).loc main_arg6) := (W2_of_ne m ρ c main_arg6 (by decide)).trans (w1_arg6 m ρ c)
theorem w2_arg7 : W2 m ρ c (Proc.devRef .tc main_arg7) = m ((c : Thread nD τ).loc main_arg7) := (W2_of_ne m ρ c main_arg7 (by decide)).trans (w1_arg7 m ρ c)
theorem w2_arg8 : W2 m ρ c (Proc.devRef .tc main_arg8) = m ((c : Thread nD τ).loc main_arg8) := (W2_of_ne m ρ c main_arg8 (by decide)).trans (w1_arg8 m ρ c)
theorem w2_arg9 : W2 m ρ c (Proc.devRef .tc main_arg9) = m ((c : Thread nD τ).loc main_arg9) := (W2_of_ne m ρ c main_arg9 (by decide)).trans (w1_arg9 m ρ c)
theorem w2_arg10 : W2 m ρ c (Proc.devRef .tc main_arg10) = m ((c : Thread nD τ).loc main_arg10) := (W2_of_ne m ρ c main_arg10 (by decide)).trans (w1_arg10 m ρ c)
theorem w2_arg11 : W2 m ρ c (Proc.devRef .tc main_arg11) = m ((c : Thread nD τ).loc main_arg11) := (W2_of_ne m ρ c main_arg11 (by decide)).trans (w1_arg11 m ρ c)

/-! ### After the second stretch -/

theorem w3_v25 : W3 m ρ c (Proc.devRef .tc main_v25) = agg (H0 m c) (SRC m c) (DST m c) := by
  refine (s1_v25 (W2 m ρ c)).trans ?_
  rw [w2_v6, w2_v1, w2_v3]
theorem w3_v26 : W3 m ρ c (Proc.devRef .tc main_v26) = shapeCast S1x256 (m ((c : Thread nD τ).loc main_arg7)) shapeCasts_S256_S1x256 := by
  refine (s1_v26 (W2 m ρ c)).trans ?_
  rw [w2_arg7]
theorem w3_v6 : W3 m ρ c (Proc.devRef .tc main_v6) = H0 m c := by
  refine (show after hostOps1 (W2 m ρ c) (Proc.devRef .tc main_v6) = W2 m ρ c (Proc.devRef .tc main_v6) from by unwritten hostOps1).trans ?_
  exact w2_v6 m ρ c
theorem w3_v1 : W3 m ρ c (Proc.devRef .tc main_v1) = SRC m c := by
  refine (show after hostOps1 (W2 m ρ c) (Proc.devRef .tc main_v1) = W2 m ρ c (Proc.devRef .tc main_v1) from by unwritten hostOps1).trans ?_
  exact w2_v1 m ρ c
theorem w3_v3 : W3 m ρ c (Proc.devRef .tc main_v3) = DST m c := by
  refine (show after hostOps1 (W2 m ρ c) (Proc.devRef .tc main_v3) = W2 m ρ c (Proc.devRef .tc main_v3) from by unwritten hostOps1).trans ?_
  exact w2_v3 m ρ c
theorem w3_arg6 : W3 m ρ c (Proc.devRef .tc main_arg6) = m ((c : Thread nD τ).loc main_arg6) := by
  refine (show after hostOps1 (W2 m ρ c) (Proc.devRef .tc main_arg6) = W2 m ρ c (Proc.devRef .tc main_arg6) from by unwritten hostOps1).trans ?_
  exact w2_arg6 m ρ c
theorem w3_arg8 : W3 m ρ c (Proc.devRef .tc main_arg8) = m ((c : Thread nD τ).loc main_arg8) := by
  refine (show after hostOps1 (W2 m ρ c) (Proc.devRef .tc main_arg8) = W2 m ρ c (Proc.devRef .tc main_arg8) from by unwritten hostOps1).trans ?_
  exact w2_arg8 m ρ c
theorem w3_arg9 : W3 m ρ c (Proc.devRef .tc main_arg9) = m ((c : Thread nD τ).loc main_arg9) := by
  refine (show after hostOps1 (W2 m ρ c) (Proc.devRef .tc main_arg9) = W2 m ρ c (Proc.devRef .tc main_arg9) from by unwritten hostOps1).trans ?_
  exact w2_arg9 m ρ c
theorem w3_arg10 : W3 m ρ c (Proc.devRef .tc main_arg10) = m ((c : Thread nD τ).loc main_arg10) := by
  refine (show after hostOps1 (W2 m ρ c) (Proc.devRef .tc main_arg10) = W2 m ρ c (Proc.devRef .tc main_arg10) from by unwritten hostOps1).trans ?_
  exact w2_arg10 m ρ c
theorem w3_arg11 : W3 m ρ c (Proc.devRef .tc main_arg11) = m ((c : Thread nD τ).loc main_arg11) := by
  refine (show after hostOps1 (W2 m ρ c) (Proc.devRef .tc main_arg11) = W2 m ρ c (Proc.devRef .tc main_arg11) from by unwritten hostOps1).trans ?_
  exact w2_arg11 m ρ c

/-! ### After the second region -/

theorem w4_v27 : W4 m ρ c (Proc.devRef .tc main_v27) = H1 m c := by
  refine (W4_arr m ρ c 5).trans ((final1 (V3 m ρ) c).trans ?_)
  show Sage.convRelu (W3 m ρ c (Proc.devRef .tc main_v25) : S50000x256.Idx → EReal) (W3 m ρ c (Proc.devRef .tc main_v6) : S50000x256.Idx → EReal) (W3 m ρ c (Proc.devRef .tc main_arg6) : S256x256.Idx → EReal) (W3 m ρ c (Proc.devRef .tc main_v26) : S1x256.Idx → EReal) (W3 m ρ c (Proc.devRef .tc main_arg8) : S256x256.Idx → EReal) = _
  rw [w3_v25, w3_v6, w3_arg6, w3_v26, w3_arg8, cast256_eq]
  rfl
theorem w4_v1 : W4 m ρ c (Proc.devRef .tc main_v1) = SRC m c := (W4_of_ne m ρ c main_v1 (by decide)).trans (w3_v1 m ρ c)
theorem w4_v3 : W4 m ρ c (Proc.devRef .tc main_v3) = DST m c := (W4_of_ne m ρ c main_v3 (by decide)).trans (w3_v3 m ρ c)
theorem w4_arg9 : W4 m ρ c (Proc.devRef .tc main_arg9) = m ((c : Thread nD τ).loc main_arg9) := (W4_of_ne m ρ c main_arg9 (by decide)).trans (w3_arg9 m ρ c)
theorem w4_arg10 : W4 m ρ c (Proc.devRef .tc main_arg10) = m ((c : Thread nD τ).loc main_arg10) := (W4_of_ne m ρ c main_arg10 (by decide)).trans (w3_arg10 m ρ c)
theorem w4_arg11 : W4 m ρ c (Proc.devRef .tc main_arg11) = m ((c : Thread nD τ).loc main_arg11) := (W4_of_ne m ρ c main_arg11 (by decide)).trans (w3_arg11 m ρ c)

/-! ### After the third stretch -/

theorem w5_v46 : W5 m ρ c (Proc.devRef .tc main_v46) = agg (H1 m c) (SRC m c) (DST m c) := by
  refine (s2_v46 (W4 m ρ c)).trans ?_
  rw [w4_v27, w4_v1, w4_v3]
theorem w5_v47 : W5 m ρ c (Proc.devRef .tc main_v47) = shapeCast S1x128 (m ((c : Thread nD τ).loc main_arg10)) shapeCasts_S128_S1x128 := by
  refine (s2_v47 (W4 m ρ c)).trans ?_
  rw [w4_arg10]
theorem w5_v27 : W5 m ρ c (Proc.devRef .tc main_v27) = H1 m c := by
  refine (show after hostOps2 (W4 m ρ c) (Proc.devRef .tc main_v27) = W4 m ρ c (Proc.devRef .tc main_v27) from by unwritten hostOps2).trans ?_
  exact w4_v27 m ρ c
theorem w5_arg9 : W5 m ρ c (Proc.devRef .tc main_arg9) = m ((c : Thread nD τ).loc main_arg9) := by
  refine (show after hostOps2 (W4 m ρ c) (Proc.devRef .tc main_arg9) = W4 m ρ c (Proc.devRef .tc main_arg9) from by unwritten hostOps2).trans ?_
  exact w4_arg9 m ρ c
theorem w5_arg11 : W5 m ρ c (Proc.devRef .tc main_arg11) = m ((c : Thread nD τ).loc main_arg11) := by
  refine (show after hostOps2 (W4 m ρ c) (Proc.devRef .tc main_arg11) = W4 m ρ c (Proc.devRef .tc main_arg11) from by unwritten hostOps2).trans ?_
  exact w4_arg11 m ρ c

/-! ### After the third region: the result -/

/-- The result buffer ends holding the forward pass of the launch memory's arguments. -/
theorem w6_v48 : W6 m ρ c (Proc.devRef .tc main_v48)
    = fwd (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  refine (W6_arr m ρ c 5).trans ((final2 (V5 m ρ) c).trans ?_)
  show Sage.convNorm (W5 m ρ c (Proc.devRef .tc main_v46) : S50000x256.Idx → EReal) (W5 m ρ c (Proc.devRef .tc main_v27) : S50000x256.Idx → EReal) (W5 m ρ c (Proc.devRef .tc main_arg9) : S128x256.Idx → EReal) (W5 m ρ c (Proc.devRef .tc main_v47) : S1x128.Idx → EReal) (W5 m ρ c (Proc.devRef .tc main_arg11) : S128x256.Idx → EReal) = _
  rw [w5_v46, w5_v27, w5_arg9, w5_v47, w5_arg11, cast128_eq]
  rfl

end Cert.KernelIdeal.Hand

end
-- ==== Proof.RefStages.lean ====
/-
  The reference's three row-wise stages, entry by entry, over the extended reals.

  Every stage is built from products x·Wᵀ. The reference forms Wᵀ first, Wᵀ(k, q) = W(q, k), and then contracts the
  columns of x against the rows of Wᵀ, so that entry (p, q) of the product is the sum over k of x(p, k)·W(q, k). A bias
  is a vector b laid along one row and then repeated down the rows: its entry at (p, q) is b(q), whatever p is.

  * The first stage is two affine maps one after the other: entry (p, q) is the sum over k of u(p, k)·W₂(q, k) plus
    b₂(q), where u(p, k) is the sum over j of x(p, j)·W₁(k, j) plus b₁(k).
  * The second stage combines the neighbours' average and the node's own features,
    c(p, q) = (the sum over k of mean(p, k)·Wl(q, k) + bl(q)) + the sum over k of h(p, k)·Wr(q, k),
    and takes the larger of c(p, q) and the zero word.
  * The third stage forms the same combination c with its own weights, then for every row p the sum over j of
    c(p, j)·c(p, j), started from an initial value that is the zero word, which is zero; the row's length is the larger
    of the square root of that sum and a small literal, and entry (p, q) of the result is c(p, q) divided by the
    length of row p, the same divisor for every q.

  In the second and third stage the average and the previous stage's result enter as given arrays: only one row
  of each is read for an entry of the result.
-/
import proofs.«103946_j64003602645175_1_alg».proof.Proof.Gen.ReferenceIdeal.Read
import proofs.«103946_j64003602645175_1_alg».proof.Proof.Spec

noncomputable section

open Idealize.ShloMosaic Idealize.ShloMosaic.ValueIdx Cert.ReferenceIdeal Cert.ReferenceIdeal.Read

namespace Cert.ReferenceIdeal.RefValue

/-! ### The first stage: two affine maps -/

/-- Entry (p, k) of x·W₁ᵀ + b₁. -/
theorem lin1_at (x0 : (⟨S50000x512, .f32⟩ : BufTy).Contents (Elt Ideal)) (x2 : (⟨S256x512, .f32⟩ : BufTy).Contents (Elt Ideal))
    (x3 : (⟨S256, .f32⟩ : BufTy).Contents (Elt Ideal)) (p : Fin 50000) (k : Fin 256) :
    val_main_v8 (F := Ideal) x0 x2 x3 (ix2 p k) = Sage.linAt x0 x2 (Sage.row1 x3) p k := by
  rw [val_main_v8_apply, val_main_v5_apply, val_main_v7_apply, val_main_v6_apply]
  have eb : idx_main_v6 (idx_main_v7 (ix2 p k)) = ix1 k := funext fun a => Fin.ext (by match a with | ⟨0, _⟩ => rfl)
  rw [eb, Ideal.addf_def]
  unfold Sage.linAt Sage.dotRow
  refine congrArg₂ (· + ·) (Finset.sum_congr rfl fun j _ => ?_) rfl
  rw [val_main_v4_apply]
  have el : lidx_main_v5 (ix2 p k) j = ix2 p j :=
    funext fun a => Fin.ext (by match a with | ⟨0, _⟩ => rfl | ⟨1, _⟩ => rfl)
  have er : idx_main_v4 (ridx_main_v5 (ix2 p k) j) = ix2 k j :=
    funext fun a => Fin.ext (by match a with | ⟨0, _⟩ => rfl | ⟨1, _⟩ => rfl)
  rw [el, er]

/-- The first stage is the two affine maps of the specification. -/
theorem pre_eq (x0 : (⟨S50000x512, .f32⟩ : BufTy).Contents (Elt Ideal)) (x2 : (⟨S256x512, .f32⟩ : BufTy).Contents (Elt Ideal))
    (x3 : (⟨S256, .f32⟩ : BufTy).Contents (Elt Ideal)) (x4 : (⟨S256x256, .f32⟩ : BufTy).Contents (Elt Ideal))
    (x5 : (⟨S256, .f32⟩ : BufTy).Contents (Elt Ideal)) :
    val_main_v13 (F := Ideal) x0 x2 x3 x4 x5 = Sage.pre x0 x2 (Sage.row1 x3) x4 (Sage.row1 x5) := by
  funext i
  obtain ⟨p, q, rfl⟩ : ∃ (p : Fin 50000) (q : Fin 256), i = ix2 p q := ⟨i 0, i 1, eq_ix2 i⟩
  rw [val_main_v13_apply, val_main_v10_apply, val_main_v12_apply, val_main_v11_apply]
  have eb : idx_main_v11 (idx_main_v12 (ix2 p q)) = ix1 q := funext fun a => Fin.ext (by match a with | ⟨0, _⟩ => rfl)
  rw [eb, Ideal.addf_def]
  unfold Sage.pre
  rw [Sage.lin_ix2]
  unfold Sage.linAt Sage.dotRow
  refine congrArg₂ (· + ·) (Finset.sum_congr rfl fun k _ => ?_) rfl
  rw [val_main_v9_apply]
  have el : lidx_main_v10 (ix2 p q) k = ix2 p k :=
    funext fun a => Fin.ext (by match a with | ⟨0, _⟩ => rfl | ⟨1, _⟩ => rfl)
  have er : idx_main_v9 (ridx_main_v10 (ix2 p q) k) = ix2 q k :=
    funext fun a => Fin.ext (by match a with | ⟨0, _⟩ => rfl | ⟨1, _⟩ => rfl)
  rw [el, er, lin1_at, Sage.lin_ix2]

/-! ### The second stage: the combination and its positive part -/

/-- Entry (p, q) of (mean·Wlᵀ + bl) + h·Wrᵀ at the first convolution, the average and the first stage's result as
    they stand. -/
theorem comb1_at (x0 : (⟨S50000x512, .f32⟩ : BufTy).Contents (Elt Ideal)) (x1 : (⟨S2x800000, .i32⟩ : BufTy).Contents (Elt Ideal))
    (x2 : (⟨S256x512, .f32⟩ : BufTy).Contents (Elt Ideal)) (x3 : (⟨S256, .f32⟩ : BufTy).Contents (Elt Ideal))
    (x4 : (⟨S256x256, .f32⟩ : BufTy).Contents (Elt Ideal)) (x5 : (⟨S256, .f32⟩ : BufTy).Contents (Elt Ideal))
    (x6 : (⟨S256x256, .f32⟩ : BufTy).Contents (Elt Ideal)) (x7 : (⟨S256, .f32⟩ : BufTy).Contents (Elt Ideal))
    (x8 : (⟨S256x256, .f32⟩ : BufTy).Contents (Elt Ideal)) (p : Fin 50000) (q : Fin 256) :
    val_main_v40 (F := Ideal) x0 x1 x2 x3 x4 x5 x6 x7 x8 (ix2 p q)
      = Sage.combAt (val_main_v32 (F := Ideal) x0 x1 x2 x3 x4 x5) (val_main_v13 (F := Ideal) x0 x2 x3 x4 x5) x6 (Sage.row1 x7) x8 p q := by
  rw [val_main_v40_apply, val_main_v37_apply, val_main_v34_apply, val_main_v36_apply, val_main_v35_apply, val_main_v39_apply]
  generalize val_main_v32 (F := Ideal) x0 x1 x2 x3 x4 x5 = y
  generalize val_main_v13 (F := Ideal) x0 x2 x3 x4 x5 = z
  have eb : idx_main_v35 (idx_main_v36 (ix2 p q)) = ix1 q := funext fun a => Fin.ext (by match a with | ⟨0, _⟩ => rfl)
  rw [eb, Ideal.addf_def, Ideal.addf_def]
  unfold Sage.combAt Sage.linAt Sage.dotRow
  refine congrArg₂ (· + ·) (congrArg₂ (· + ·) (Finset.sum_congr rfl fun k _ => ?_) rfl) (Finset.sum_congr rfl fun k _ => ?_)
  · rw [val_main_v33_apply]
    have el : lidx_main_v34 (ix2 p q) k = ix2 p k :=
      funext fun a => Fin.ext (by match a with | ⟨0, _⟩ => rfl | ⟨1, _⟩ => rfl)
    have er : idx_main_v33 (ridx_main_v34 (ix2 p q) k) = ix2 q k :=
      funext fun a => Fin.ext (by match a with | ⟨0, _⟩ => rfl | ⟨1, _⟩ => rfl)
    rw [el, er]
  · rw [val_main_v38_apply]
    have el : lidx_main_v39 (ix2 p q) k = ix2 p k :=
      funext fun a => Fin.ext (by match a with | ⟨0, _⟩ => rfl | ⟨1, _⟩ => rfl)
    have er : idx_main_v38 (ridx_main_v39 (ix2 p q) k) = ix2 q k :=
      funext fun a => Fin.ext (by match a with | ⟨0, _⟩ => rfl | ⟨1, _⟩ => rfl)
    rw [el, er]

/-- The second stage is the positive part of the combination. -/
theorem relu_eq (x0 : (⟨S50000x512, .f32⟩ : BufTy).Contents (Elt Ideal)) (x1 : (⟨S2x800000, .i32⟩ : BufTy).Contents (Elt Ideal))
    (x2 : (⟨S256x512, .f32⟩ : BufTy).Contents (Elt Ideal)) (x3 : (⟨S256, .f32⟩ : BufTy).Contents (Elt Ideal))
    (x4 : (⟨S256x256, .f32⟩ : BufTy).Contents (Elt Ideal)) (x5 : (⟨S256, .f32⟩ : BufTy).Contents (Elt Ideal))
    (x6 : (⟨S256x256, .f32⟩ : BufTy).Contents (Elt Ideal)) (x7 : (⟨S256, .f32⟩ : BufTy).Contents (Elt Ideal))
    (x8 : (⟨S256x256, .f32⟩ : BufTy).Contents (Elt Ideal)) :
    val_main_v41 (F := Ideal) x0 x1 x2 x3 x4 x5 x6 x7 x8
      = Sage.convRelu (val_main_v32 (F := Ideal) x0 x1 x2 x3 x4 x5) (val_main_v13 (F := Ideal) x0 x2 x3 x4 x5) x6 (Sage.row1 x7) x8 := by
  funext i
  obtain ⟨p, q, rfl⟩ : ∃ (p : Fin 50000) (q : Fin 256), i = ix2 p q := ⟨i 0, i 1, eq_ix2 i⟩
  rw [val_main_v41_apply, val_main_call0_v0_apply, val_main_call0_cst_apply, comb1_at, Sage.convRelu_ix2,
    Ideal.maximumf_def, Ideal.ofBits_def]

/-! ### The third stage: the combination, each row divided by its length -/

/-- Entry (p, q) of (mean·Wlᵀ + bl) + h·Wrᵀ at the second convolution, the average and the second stage's result as
    they stand. -/
theorem comb2_at (x0 : (⟨S50000x512, .f32⟩ : BufTy).Contents (Elt Ideal)) (x1 : (⟨S2x800000, .i32⟩ : BufTy).Contents (Elt Ideal))
    (x2 : (⟨S256x512, .f32⟩ : BufTy).Contents (Elt Ideal)) (x3 : (⟨S256, .f32⟩ : BufTy).Contents (Elt Ideal))
    (x4 : (⟨S256x256, .f32⟩ : BufTy).Contents (Elt Ideal)) (x5 : (⟨S256, .f32⟩ : BufTy).Contents (Elt Ideal))
    (x6 : (⟨S256x256, .f32⟩ : BufTy).Contents (Elt Ideal)) (x7 : (⟨S256, .f32⟩ : BufTy).Contents (Elt Ideal))
    (x8 : (⟨S256x256, .f32⟩ : BufTy).Contents (Elt Ideal)) (x9 : (⟨S128x256, .f32⟩ : BufTy).Contents (Elt Ideal))
    (x10 : (⟨S128, .f32⟩ : BufTy).Contents (Elt Ideal)) (x11 : (⟨S128x256, .f32⟩ : BufTy).Contents (Elt Ideal)) (p : Fin 50000) (q : Fin 128) :
    val_main_v68 (F := Ideal) x0 x1 x2 x3 x4 x5 x6 x7 x8 x9 x10 x11 (ix2 p q)
      = Sage.combAt (val_main_v60 (F := Ideal) x0 x1 x2 x3 x4 x5 x6 x7 x8) (val_main_v41 (F := Ideal) x0 x1 x2 x3 x4 x5 x6 x7 x8)
          x9 (Sage.row1 x10) x11 p q := by
  rw [val_main_v68_apply, val_main_v65_apply, val_main_v62_apply, val_main_v64_apply, val_main_v63_apply, val_main_v67_apply]
  generalize val_main_v60 (F := Ideal) x0 x1 x2 x3 x4 x5 x6 x7 x8 = y
  generalize val_main_v41 (F := Ideal) x0 x1 x2 x3 x4 x5 x6 x7 x8 = z
  have eb : idx_main_v63 (idx_main_v64 (ix2 p q)) = ix1 q := funext fun a => Fin.ext (by match a with | ⟨0, _⟩ => rfl)
  rw [eb, Ideal.addf_def, Ideal.addf_def]
  unfold Sage.combAt Sage.linAt Sage.dotRow
  refine congrArg₂ (· + ·) (congrArg₂ (· + ·) (Finset.sum_congr rfl fun k _ => ?_) rfl) (Finset.sum_congr rfl fun k _ => ?_)
  · rw [val_main_v61_apply]
    have el : lidx_main_v62 (ix2 p q) k = ix2 p k :=
      funext fun a => Fin.ext (by match a with | ⟨0, _⟩ => rfl | ⟨1, _⟩ => rfl)
    have er : idx_main_v61 (ridx_main_v62 (ix2 p q) k) = ix2 q k :=
      funext fun a => Fin.ext (by match a with | ⟨0, _⟩ => rfl | ⟨1, _⟩ => rfl)
    rw [el, er]
  · rw [val_main_v66_apply]
    have el : lidx_main_v67 (ix2 p q) k = ix2 p k :=
      funext fun a => Fin.ext (by match a with | ⟨0, _⟩ => rfl | ⟨1, _⟩ => rfl)
    have er : idx_main_v66 (ridx_main_v67 (ix2 p q) k) = ix2 q k :=
      funext fun a => Fin.ext (by match a with | ⟨0, _⟩ => rfl | ⟨1, _⟩ => rfl)
    rw [el, er]

/-- The sum of the squares of row p of the combination. The reference starts the sum from an initial value, the zero
    word, which is zero. -/
theorem sumsq_at (x0 : (⟨S50000x512, .f32⟩ : BufTy).Contents (Elt Ideal)) (x1 : (⟨S2x800000, .i32⟩ : BufTy).Contents (Elt Ideal))
    (x2 : (⟨S256x512, .f32⟩ : BufTy).Contents (Elt Ideal)) (x3 : (⟨S256, .f32⟩ : BufTy).Contents (Elt Ideal))
    (x4 : (⟨S256x256, .f32⟩ : BufTy).Contents (Elt Ideal)) (x5 : (⟨S256, .f32⟩ : BufTy).Contents (Elt Ideal))
    (x6 : (⟨S256x256, .f32⟩ : BufTy).Contents (Elt Ideal)) (x7 : (⟨S256, .f32⟩ : BufTy).Contents (Elt Ideal))
    (x8 : (⟨S256x256, .f32⟩ : BufTy).Contents (Elt Ideal)) (x9 : (⟨S128x256, .f32⟩ : BufTy).Contents (Elt Ideal))
    (x10 : (⟨S128, .f32⟩ : BufTy).Contents (Elt Ideal)) (x11 : (⟨S128x256, .f32⟩ : BufTy).Contents (Elt Ideal)) (p : Fin 50000) :
    val_main_call1_v1 (F := Ideal) x0 x1 x2 x3 x4 x5 x6 x7 x8 x9 x10 x11 (ix1 p)
      = ∑ j : Fin 128, Sage.combAt (val_main_v60 (F := Ideal) x0 x1 x2 x3 x4 x5 x6 x7 x8) (val_main_v41 (F := Ideal) x0 x1 x2 x3 x4 x5 x6 x7 x8)
          x9 (Sage.row1 x10) x11 p j
          * Sage.combAt (val_main_v60 (F := Ideal) x0 x1 x2 x3 x4 x5 x6 x7 x8) (val_main_v41 (F := Ideal) x0 x1 x2 x3 x4 x5 x6 x7 x8)
          x9 (Sage.row1 x10) x11 p j := by
  rw [val_main_call1_v1_apply, val_main_call1_cst_apply, Ideal.ofBits_def, Ideal.ofBits_zero_f32, zero_add]
  refine Finset.sum_congr rfl fun j _ => ?_
  have e : idx_main_call1_v1 (ix1 p) j = ix2 p j :=
    funext fun a => Fin.ext (by match a with | ⟨0, _⟩ => rfl | ⟨1, _⟩ => rfl)
  rw [e, val_main_call1_v0_apply, comb2_at, Ideal.mulf_def]

/-- The divisor at entry (p, q) is the length of row p, the same for every q. -/
theorem len_at (x0 : (⟨S50000x512, .f32⟩ : BufTy).Contents (Elt Ideal)) (x1 : (⟨S2x800000, .i32⟩ : BufTy).Contents (Elt Ideal))
    (x2 : (⟨S256x512, .f32⟩ : BufTy).Contents (Elt Ideal)) (x3 : (⟨S256, .f32⟩ : BufTy).Contents (Elt Ideal))
    (x4 : (⟨S256x256, .f32⟩ : BufTy).Contents (Elt Ideal)) (x5 : (⟨S256, .f32⟩ : BufTy).Contents (Elt Ideal))
    (x6 : (⟨S256x256, .f32⟩ : BufTy).Contents (Elt Ideal)) (x7 : (⟨S256, .f32⟩ : BufTy).Contents (Elt Ideal))
    (x8 : (⟨S256x256, .f32⟩ : BufTy).Contents (Elt Ideal)) (x9 : (⟨S128x256, .f32⟩ : BufTy).Contents (Elt Ideal))
    (x10 : (⟨S128, .f32⟩ : BufTy).Contents (Elt Ideal)) (x11 : (⟨S128x256, .f32⟩ : BufTy).Contents (Elt Ideal)) (p : Fin 50000) (q : Fin 128) :
    val_main_v72 (F := Ideal) x0 x1 x2 x3 x4 x5 x6 x7 x8 x9 x10 x11 (ix2 p q)
      = Sage.rowLen (val_main_v60 (F := Ideal) x0 x1 x2 x3 x4 x5 x6 x7 x8) (val_main_v41 (F := Ideal) x0 x1 x2 x3 x4 x5 x6 x7 x8)
          x9 (Sage.row1 x10) x11 p := by
  unfold Sage.rowLen
  rw [val_main_v72_apply, val_main_v71_apply, val_main_v69_apply, val_main_call1_v2_apply, val_main_v70_apply,
    val_main_cst_10_apply]
  have e : idx_main_call1_v2 (idx_main_v72 (ix2 p q)) = ix1 p := funext fun a => Fin.ext (by match a with | ⟨0, _⟩ => rfl)
  rw [e, sumsq_at, Ideal.maximumf_def, Ideal.hostUnary_sqrt_def, Ideal.ofBits_def]

/-- The third stage is the combination with each row divided by its length. -/
theorem norm_eq (x0 : (⟨S50000x512, .f32⟩ : BufTy).Contents (Elt Ideal)) (x1 : (⟨S2x800000, .i32⟩ : BufTy).Contents (Elt Ideal))
    (x2 : (⟨S256x512, .f32⟩ : BufTy).Contents (Elt Ideal)) (x3 : (⟨S256, .f32⟩ : BufTy).Contents (Elt Ideal))
    (x4 : (⟨S256x256, .f32⟩ : BufTy).Contents (Elt Ideal)) (x5 : (⟨S256, .f32⟩ : BufTy).Contents (Elt Ideal))
    (x6 : (⟨S256x256, .f32⟩ : BufTy).Contents (Elt Ideal)) (x7 : (⟨S256, .f32⟩ : BufTy).Contents (Elt Ideal))
    (x8 : (⟨S256x256, .f32⟩ : BufTy).Contents (Elt Ideal)) (x9 : (⟨S128x256, .f32⟩ : BufTy).Contents (Elt Ideal))
    (x10 : (⟨S128, .f32⟩ : BufTy).Contents (Elt Ideal)) (x11 : (⟨S128x256, .f32⟩ : BufTy).Contents (Elt Ideal)) :
    val_main_v73 (F := Ideal) x0 x1 x2 x3 x4 x5 x6 x7 x8 x9 x10 x11
      = Sage.convNorm (val_main_v60 (F := Ideal) x0 x1 x2 x3 x4 x5 x6 x7 x8) (val_main_v41 (F := Ideal) x0 x1 x2 x3 x4 x5 x6 x7 x8)
          x9 (Sage.row1 x10) x11 := by
  funext i
  obtain ⟨p, q, rfl⟩ : ∃ (p : Fin 50000) (q : Fin 128), i = ix2 p q := ⟨i 0, i 1, eq_ix2 i⟩
  rw [val_main_v73_apply, comb2_at, len_at, Sage.convNorm_ix2, Ideal.hostDivf_def]

end Cert.ReferenceIdeal.RefValue

end
-- ==== Proof.RefWhole.lean ====
/-
  The reference's neighbourhood average is the kernel's, and the reference's result is the whole forward pass.

  Both programs spell the average of the rows of h over a node's incoming edges with the same operations on the same
  literals: the edge list's two rows cut out and flattened, the sources and the targets; a negative source counted
  from the end; the rows of h gathered at the sources and summed into the targets' rows, starting from zero; the
  number of edges that arrive at each node, counted by summing ones from zero and bounded below by one, spread along
  the row as the divisor.  Operation by operation the two spellings coincide, the dimension records of the one being
  the same literals as those of the other, so the reference's average of h is the function `agg h src dst` whatever
  h is.

  With the three row-wise stages identified entry by entry, the reference's result is their composition: the two
  affine maps; the positive part of the combination of their average with themselves; the second combination, of
  that and its average, each row divided by its length.  That composition is the forward pass `fwd`.
-/
import proofs.«103946_j64003602645175_1_alg».proof.Proof.RefStages
import proofs.«103946_j64003602645175_1_alg».proof.Proof.Whole

noncomputable section

open Idealize.ShloMosaic Idealize.ShloMosaic.ValueIdx Cert.ReferenceIdeal Cert.ReferenceIdeal.Read

namespace Cert.ReferenceIdeal.RefValue

/-- The first average: of the first stage's result. -/
theorem agg1_eq (x0 : (⟨S50000x512, .f32⟩ : BufTy).Contents (Elt Ideal)) (x1 : (⟨S2x800000, .i32⟩ : BufTy).Contents (Elt Ideal))
    (x2 : (⟨S256x512, .f32⟩ : BufTy).Contents (Elt Ideal)) (x3 : (⟨S256, .f32⟩ : BufTy).Contents (Elt Ideal))
    (x4 : (⟨S256x256, .f32⟩ : BufTy).Contents (Elt Ideal)) (x5 : (⟨S256, .f32⟩ : BufTy).Contents (Elt Ideal)) :
    val_main_v32 (F := Ideal) x0 x1 x2 x3 x4 x5
      = Cert.KernelIdeal.Hand.agg (val_main_v13 (F := Ideal) x0 x2 x3 x4 x5) (Cert.KernelIdeal.Hand.srcOf x1)
          (Cert.KernelIdeal.Hand.dstOf x1) := by
  unfold val_main_v32 val_main_v23 val_main_v20
  generalize val_main_v13 (F := Ideal) x0 x2 x3 x4 x5 = y
  unfold val_main_v31 val_main_v30 val_main_v29 val_main_v28 val_main_v27 val_main_v26 val_main_v25 val_main_v24
    val_main_v22 val_main_v21 val_main_v19 val_main_v18 val_main_v17 val_main_v16 val_main_v15 val_main_v14
    val_main_v3 val_main_v2 val_main_v1 val_main_v0 val_main_c val_main_c_0 val_main_cst val_main_cst_1 val_main_cst_2
    val_main_cst_3
  unfold Cert.KernelIdeal.Hand.agg Cert.KernelIdeal.Hand.srcOf Cert.KernelIdeal.Hand.dstOf
  rfl

/-- The second average: of the second stage's result. -/
theorem agg2_eq (x0 : (⟨S50000x512, .f32⟩ : BufTy).Contents (Elt Ideal)) (x1 : (⟨S2x800000, .i32⟩ : BufTy).Contents (Elt Ideal))
    (x2 : (⟨S256x512, .f32⟩ : BufTy).Contents (Elt Ideal)) (x3 : (⟨S256, .f32⟩ : BufTy).Contents (Elt Ideal))
    (x4 : (⟨S256x256, .f32⟩ : BufTy).Contents (Elt Ideal)) (x5 : (⟨S256, .f32⟩ : BufTy).Contents (Elt Ideal))
    (x6 : (⟨S256x256, .f32⟩ : BufTy).Contents (Elt Ideal)) (x7 : (⟨S256, .f32⟩ : BufTy).Contents (Elt Ideal))
    (x8 : (⟨S256x256, .f32⟩ : BufTy).Contents (Elt Ideal)) :
    val_main_v60 (F := Ideal) x0 x1 x2 x3 x4 x5 x6 x7 x8
      = Cert.KernelIdeal.Hand.agg (val_main_v41 (F := Ideal) x0 x1 x2 x3 x4 x5 x6 x7 x8) (Cert.KernelIdeal.Hand.srcOf x1)
          (Cert.KernelIdeal.Hand.dstOf x1) := by
  unfold val_main_v60 val_main_v51 val_main_v48
  generalize val_main_v41 (F := Ideal) x0 x1 x2 x3 x4 x5 x6 x7 x8 = y
  unfold val_main_v59 val_main_v58 val_main_v57 val_main_v56 val_main_v55 val_main_v54 val_main_v53 val_main_v52
    val_main_v50 val_main_v49 val_main_v47 val_main_v46 val_main_v45 val_main_v44 val_main_v43 val_main_v42
    val_main_v3 val_main_v2 val_main_v1 val_main_v0 val_main_c_4 val_main_c_5 val_main_cst_6 val_main_cst_7 val_main_cst_8
    val_main_cst_9
  unfold Cert.KernelIdeal.Hand.agg Cert.KernelIdeal.Hand.srcOf Cert.KernelIdeal.Hand.dstOf
  rfl

/-- The reference's result is the forward pass. -/
theorem fwd_eq (x0 : (⟨S50000x512, .f32⟩ : BufTy).Contents (Elt Ideal)) (x1 : (⟨S2x800000, .i32⟩ : BufTy).Contents (Elt Ideal))
    (x2 : (⟨S256x512, .f32⟩ : BufTy).Contents (Elt Ideal)) (x3 : (⟨S256, .f32⟩ : BufTy).Contents (Elt Ideal))
    (x4 : (⟨S256x256, .f32⟩ : BufTy).Contents (Elt Ideal)) (x5 : (⟨S256, .f32⟩ : BufTy).Contents (Elt Ideal))
    (x6 : (⟨S256x256, .f32⟩ : BufTy).Contents (Elt Ideal)) (x7 : (⟨S256, .f32⟩ : BufTy).Contents (Elt Ideal))
    (x8 : (⟨S256x256, .f32⟩ : BufTy).Contents (Elt Ideal)) (x9 : (⟨S128x256, .f32⟩ : BufTy).Contents (Elt Ideal))
    (x10 : (⟨S128, .f32⟩ : BufTy).Contents (Elt Ideal)) (x11 : (⟨S128x256, .f32⟩ : BufTy).Contents (Elt Ideal)) :
    val_main_v73 (F := Ideal) x0 x1 x2 x3 x4 x5 x6 x7 x8 x9 x10 x11
      = Cert.KernelIdeal.Hand.fwd x0 x1 x2 x3 x4 x5 x6 x7 x8 x9 x10 x11 := by
  unfold Cert.KernelIdeal.Hand.fwd Cert.KernelIdeal.Hand.hid1 Cert.KernelIdeal.Hand.hid0
  rw [norm_eq, agg2_eq, relu_eq, agg1_eq, pre_eq]

end Cert.ReferenceIdeal.RefValue

end
-- ==== Proof.lean ====
/-
  A two-layer neighbourhood-averaging graph network, computed by a program of three blocked kernels among host operations,
  against its plain array reference: both end with the same array of extended reals.

  The mathematics.  With x the node features and e the edge list, both programs compute
    h  = (x·W₁ᵀ + b₁)·W₂ᵀ + b₂,
    h₁ = max((A h)·Wlᵀ + bl + h·Wrᵀ, 0),
    o  = (A h₁)·Wl'ᵀ + bl' + h₁·Wr'ᵀ,     result = o / max(‖o‖ row by row, ε),
  where A is the neighbourhood average (gather the sources' rows, sum them into the targets' rows, divide by the number of
  arriving edges, at least one), spelt by the SAME host operations in both programs and never opened here.  The kernels
  compute each of the three stages block by block, 2000 rows at a time; an entry of a stage depends on one row of the
  node-feature operands only, so the blocks of the stage are the stage of the blocks, and the 25 blocks cover the rows.
  At the ideal values a change of float format is the identity and a matrix product is the plain sum over the contracted
  index, in the kernel's accumulated form as in the host's: no law beyond reading both sides index by index is needed, and
  the inputs' finiteness is never used.

  The modules: `Spec` (the stages), `SpecRows` (blocks of rows), `Payload` (what each kernel body stores), `Blocks0/1/2`
  (from the blocks to each region's result array), `Stretch` (the host operations between the regions), `Whole` (the
  forward pass), `Chain` (the buffers' contents boundary by boundary), `KRun` (the kernel's run with its result named),
  `RefStages` and `RefWhole` (the reference's stages and its result).
-/
import proofs.«103946_j64003602645175_1_alg».proof.Defs
import proofs.«103946_j64003602645175_1_alg».proof.Proof.Gen.Kernel
import proofs.«103946_j64003602645175_1_alg».proof.Proof.Gen.Kernel.Skeleton
import proofs.«103946_j64003602645175_1_alg».proof.Proof.Gen.Kernel.Launch
import proofs.«103946_j64003602645175_1_alg».proof.Proof.Gen.Kernel.Points
import proofs.«103946_j64003602645175_1_alg».proof.Proof.Gen.Kernel.Frame
import proofs.«103946_j64003602645175_1_alg».proof.Proof.Gen.KernelIdeal
import proofs.«103946_j64003602645175_1_alg».proof.Proof.Gen.KernelIdeal.Skeleton
import proofs.«103946_j64003602645175_1_alg».proof.Proof.Gen.KernelIdeal.Launch
import proofs.«103946_j64003602645175_1_alg».proof.Proof.Gen.KernelIdeal.Points
import proofs.«103946_j64003602645175_1_alg».proof.Proof.Gen.KernelIdeal.Frame
import proofs.«103946_j64003602645175_1_alg».proof.Proof.Gen.ReferenceIdeal
import proofs.«103946_j64003602645175_1_alg».proof.Proof.Gen.Pre_finite_inputs
import proofs.«103946_j64003602645175_1_alg».proof.Proof.Gen.ReferenceIdeal.Run
import proofs.«103946_j64003602645175_1_alg».proof.Proof.Gen.ReferenceIdeal.Read
import proofs.«103946_j64003602645175_1_alg».proof.Proof.KRun
import proofs.«103946_j64003602645175_1_alg».proof.Proof.Chain
import proofs.«103946_j64003602645175_1_alg».proof.Proof.RefWhole
import Idealize.ShloMosaic.Adequacy
import Idealize.ShloMosaic.Init

noncomputable section

namespace Cert.Proof

open Idealize.ShloMosaic Idealize.ShloMosaic.TcCoe Idealize.SL.Sem

/-- The word-level kernel runs and leaves its arguments as launched. -/
theorem frame_k : Cert.frame_Kernel := fun m ρ _ => Cert.Kernel.Gen.frame m ρ

/-- The idealized kernel runs and leaves its arguments as launched. -/
theorem frame_ki : Cert.frame_KernelIdeal := fun m ρ _ => Cert.KernelIdeal.Gen.frame m ρ

/-- The reference runs and leaves its arguments as launched: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs, from memories that agree on the arguments, end with the forward pass of those arguments: the kernel by
    its run read boundary by boundary, the reference by its run read operation by operation. -/
theorem algebraic : Cert.algebraic_KernelIdeal_ReferenceIdeal := by
  intro m ρ m' ρ' _ hagree
  refine ⟨fun c => Cert.KernelIdeal.Hand.fwd (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)), ?_, ?_⟩
  · exact (θ_run Cert.KernelIdeal.defs _ _).mono
      (fun r h c => ⟨(h c).1.trans (Cert.KernelIdeal.Hand.w6_v48 m ρ c), (h c).2⟩)
      (Cert.KernelIdeal.Hand.run_named (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v73_eq, Cert.ReferenceIdeal.RefValue.fwd_eq]
    obtain ⟨h0, h1, h2, h3, h4, h5, h6, h7, h8, h9, h10, h11⟩ := hagree c
    rw [h0, h1, h2, h3, h4, h5, h6, h7, h8, h9, h10, h11]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
